-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "inv_10000" .f32 0x38D1B717#32 ((1 / 10000 : ℝ) : EReal)
  ∧ IdealRules.named_const.Statement Cert.KernelIdeal.κ "inv_10000" .f32 0x38D1B717#32 ((1 / 10000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S10000x128 .f32) (main_arg1 : FVec F S10000x10000 .f32) (main_arg2 : FVec F S128x128 .f32) (main_arg3 : FVec F S128x128 .f32) (main_arg4 : FVec F S128 .f32) (main_arg5 : FVec F S128 .f32) (main_arg6 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 11
  | .vmem => 12
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S1x128, .f32⟩
  | .hbm, ⟨8, _⟩ => ⟨S1x128, .f32⟩
  | .hbm, ⟨9, _⟩ => ⟨S1x128, .f32⟩
  | .hbm, ⟨10, _⟩ => ⟨S10000x128, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x128, .f32⟩
  | .local _ .vmem, ⟨4, _⟩ => ⟨S128x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S1x128, .f32⟩
  | .local _ .vmem, ⟨11, _⟩ => ⟨S1x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_v0 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v3 : BitVec 32 := Scalar.muli arg0 c400_i32
  let v7 : Index := Scalar.indexCast v3
  let c0_4 : Index := 0#32
  ![v7.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S10000x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S400x10000_S400x10000_0_0 : ∀ a, (![0, 0] : Fin 2 → Nat) a + S400x10000.size a ≤ S400x10000.size a
  h_S400x10000 : 0 < S400x10000.numel
  h_S400x128 : 0 < S400x128.numel
  broadcasts_S1x128_S400x128 : S1x128.Broadcasts S400x128
  reduces_S10000x128_S128 : S10000x128.Reduces [0] S128
  broadcasts_S1x128_S10000x128 : S1x128.Broadcasts S10000x128
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  k0_off1_inb : ∀ i : grid0.Coords, ∀ a, (k0_off1 i) a + S400x128.size a ≤ S10000x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S10000x128.size a ≤ S10000x128.size a
  hwx0_7 : ∀ i : grid0.Coords, EltTy.bits .f32 = 32 ∨ (Rect.block (s := S10000x128) S10000x128.size (cc0_transform_7 i) (hinb0_7 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v2) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S10000x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S10000x128, .f32⟩
  | .hbm, ⟨8, _⟩ => ⟨S10000x128, .f32⟩
  | .hbm, ⟨9, _⟩ => ⟨S10000x128, .f32⟩
  | .hbm, ⟨10, _⟩ => ⟨S10000x128, .f32⟩
  | .hbm, ⟨11, _⟩ => ⟨S1x128, .f32⟩
  | .hbm, ⟨12, _⟩ => ⟨S10000x128, .f32⟩
  | .hbm, ⟨13, _⟩ => ⟨S10000x128, .f32⟩
  | .hbm, ⟨14, _⟩ => ⟨S_, .f32⟩
  | .hbm, ⟨15, _⟩ => ⟨S128, .f32⟩
  | .hbm, ⟨16, _⟩ => ⟨S_, .f32⟩
  | .hbm, ⟨17, _⟩ => ⟨S128, .f32⟩
  | .hbm, ⟨18, _⟩ => ⟨S128, .f32⟩
  | .hbm, ⟨19, _⟩ => ⟨S_, .i32⟩
  | .hbm, ⟨20, _⟩ => ⟨S_, .f32⟩
  | .hbm, ⟨21, _⟩ => ⟨S128, .f32⟩
  | .hbm, ⟨22, _⟩ => ⟨S1x128, .f32⟩
  | .hbm, ⟨23, _⟩ => ⟨S_, .f32⟩
  | .hbm, ⟨24, _⟩ => ⟨S1x128, .f32⟩
  | .hbm, ⟨25, _⟩ => ⟨S1x128, .f32⟩
  | .hbm, ⟨26, _⟩ => ⟨S10000x128, .f32⟩
  | .hbm, ⟨27, _⟩ => ⟨S10000x128, .f32⟩
  | .hbm, ⟨28, _⟩ => ⟨S10000x128, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S128, .f32⟩
  | .hbm, ⟨34, _⟩ => ⟨S128, .f32⟩
  | .hbm, ⟨35, _⟩ => ⟨S128, .f32⟩
  | .hbm, ⟨36, _⟩ => ⟨S_, .f32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S128, .f32⟩
  | .hbm, ⟨41, _⟩ => ⟨S128, .f32⟩
  | .hbm, ⟨42, _⟩ => ⟨S1x128, .f32⟩
  | .hbm, ⟨43, _⟩ => ⟨S10000x128, .f32⟩
  | .hbm, ⟨44, _⟩ => ⟨S10000x128, .f32⟩
  | .hbm, ⟨45, _⟩ => ⟨S_, .f32⟩
  | .hbm, ⟨46, _⟩ => ⟨S128, .f32⟩
  | .hbm, ⟨47, _⟩ => ⟨S128, .f32⟩
  | .hbm, ⟨48, _⟩ => ⟨S128, .f32⟩
  | .hbm, ⟨49, _⟩ => ⟨S1x128, .f32⟩
  | .hbm, ⟨50, _⟩ => ⟨S10000x128, .f32⟩
  | .hbm, ⟨51, _⟩ => ⟨S10000x128, .f32⟩
  | .hbm, ⟨52, _⟩ => ⟨S1x128, .f32⟩
  | .hbm, ⟨53, _⟩ => ⟨S10000x128, .f32⟩
  | .hbm, ⟨54, _⟩ => ⟨S10000x128, .f32⟩
  | .hbm, ⟨55, _⟩ => ⟨S1x128, .f32⟩
  | .hbm, ⟨56, _⟩ => ⟨S10000x128, .f32⟩
  | .hbm, ⟨57, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_cst_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_cst_1 : Ref sig .tc := ⟨.hbm, 30, rfl⟩
abbrev main_call0_v8 : Ref sig .tc := ⟨.hbm, 31, rfl⟩
abbrev main_call0_cst_2 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_cst_3 : Ref sig .tc := ⟨.hbm, 36, rfl⟩
abbrev main_call0_v12 : Ref sig .tc := ⟨.hbm, 37, rfl⟩
abbrev main_call0_cst_4 : Ref sig .tc := ⟨.hbm, 38, rfl⟩
abbrev main_call0_call0_v0 : Ref sig .tc := ⟨.hbm, 39, rfl⟩
abbrev main_call0_call0_v1 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_cst_1 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  reducesTo_S10000x128_S128_d0 : S10000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KRunMid.lean ====
/-
  The kernel body run on whole staging buffers, at the grid points that take neither of its two
  conditionals (points 1 to 23): which stores it makes and what it leaves where.
-/
import proofs.«178506_g1967095022032_cont_sun_m_789_21_alg».proof.Proof.Gen.Kernel.Frame
import proofs.«178506_g1967095022032_cont_sun_m_789_21_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Which grid points take which branch

The body has two conditionals on the grid coordinate: the first is taken at point 0 only (the
support product and the zeroing of the two small accumulators), the second at point 24 only (the
normalisation of the whole resident output). -/

/-- The first conditional's test, as the body computes it from the coordinate. -/
abbrev condFirst (i : grid0.Coords) : Prop := (Scalar.cmpi .ne (Scalar.extui (Scalar.cmpi .eq (BitVec.ofNat 32 (i 0).val) 0#32)) 0#32) = 1#1
theorem condFirst_iff : ∀ t : Fin cfg0.N, condFirst (grid0.coords t) ↔ t.val = 0 :=
  (by decide +kernel : ∀ t : Fin grid0.N, condFirst (grid0.coords t) ↔ t.val = 0)

/-- The second conditional's test. -/
abbrev condLast (i : grid0.Coords) : Prop := (Scalar.cmpi .ne (Scalar.extui (Scalar.cmpi .eq (BitVec.ofNat 32 (i 0).val) 24#32)) 0#32) = 1#1
theorem condLast_iff : ∀ t : Fin cfg0.N, condLast (grid0.coords t) ↔ t.val = 24 :=
  (by decide +kernel : ∀ t : Fin grid0.N, condLast (grid0.coords t) ↔ t.val = 24)

/-! ## The body on whole staging buffers, at a point that takes neither branch

Handed the seven input blocks, the resident output at contents `y` and the support scratch at
`s0`, the body stores one slab of 400 rows into the output and leaves everything else as found.
The list of stores is found by running the body; it is the witness of the subtype. -/

set_option maxHeartbeats 1600000 in
noncomputable def runMid (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S10000x128 .f32) (harg8 : arg8.IsWhole) (arg9 : Memref sig .tc .vmem S10000x128 .f32) (harg9 : arg9.IsWhole) (arg10 : Memref sig .tc .vmem S1x128 .f32) (harg10 : arg10.IsWhole) (arg11 : Memref sig .tc .vmem S1x128 .f32) (harg11 : arg11.IsWhole) (hc0 : ¬condFirst i) (hc1 : ¬condLast i)
    (x0 : Vec F S10000x128 .f32) (x1 : Vec F S400x10000 .f32) (x2 : Vec F S128x128 .f32) (x3 : Vec F S128x128 .f32) (x4 : Vec F S1x128 .f32) (x5 : Vec F S1x128 .f32) (x6 : Vec F S1x128 .f32) (y : Vec F S10000x128 .f32) (s0 : Vec F S10000x128 .f32) :
    { L8 : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y ∗ owns (c : Thread nD τ) arg9 fullShare s0 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (arg8.view.loc (c : Thread nD τ) ↦[arg8.view.set]{fullShare} arg8.view.writes (Elt F) (harg8.unread y) L8) ∗ owns (c : Thread nD τ) arg9 fullShare s0 ∗ (∃ d, owns (c : Thread nD τ) arg10 fullShare d) ∗ (∃ d, owns (c : Thread nD τ) arg11 fullShare d)) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexact H7
    isplitl [HS0]
    · iexists _; isplitr; · ipureintro; exact harg9.read_unread _
      iexact HS0
    isplitl [HS1]
    · iexists _, _; isplitr; swap; · iexact HS1
      ipureintro; rfl
    iexists _, _; isplitr; swap; · iexact HS2
    ipureintro; rfl

end Cert.Kernel.Body

end
-- ==== Proof.KRunFirst.lean ====
/-
  The kernel body run on whole staging buffers at the first grid point: the support product is
  written, the accumulators zeroed, the first slab of the output stored.
-/
import proofs.«178506_g1967095022032_cont_sun_m_789_21_alg».proof.Proof.KRunMid

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body at the first point

The first conditional is taken: the support product x · W is stored over the whole support
scratch (handed at contents nothing names), the two small accumulators are zeroed, and then the
first slab of the output is stored, computed from the support just written. -/

set_option maxHeartbeats 1600000 in
noncomputable def runFirst (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S10000x128 .f32) (harg8 : arg8.IsWhole) (arg9 : Memref sig .tc .vmem S10000x128 .f32) (harg9 : arg9.IsWhole) (arg10 : Memref sig .tc .vmem S1x128 .f32) (harg10 : arg10.IsWhole) (arg11 : Memref sig .tc .vmem S1x128 .f32) (harg11 : arg11.IsWhole) (hc0 : condFirst i) (hc1 : ¬condLast i)
    (x0 : Vec F S10000x128 .f32) (x1 : Vec F S400x10000 .f32) (x2 : Vec F S128x128 .f32) (x3 : Vec F S128x128 .f32) (x4 : Vec F S1x128 .f32) (x5 : Vec F S1x128 .f32) (x6 : Vec F S1x128 .f32) (y : Vec F S10000x128 .f32) :
    Σ' (L8 : List (View.Piece (Elt F) S10000x128 .f32)), { LS : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (arg8.view.loc (c : Thread nD τ) ↦[arg8.view.set]{fullShare} arg8.view.writes (Elt F) (harg8.unread y) L8) ∗ (∃ f, arg9.view.loc (c : Thread nD τ) ↦[arg9.view.set]{fullShare} arg9.view.writes (Elt F) f LS) ∗ (∃ d, owns (c : Thread nD τ) arg10 fullShare d) ∗ (∃ d, owns (c : Thread nD τ) arg11 fullShare d)) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexact H7
    isplitl [HS0]; · iexists fs0; iexact HS0
    isplitl [HS1]
    · iexists _, _; isplitr; swap; · iexact HS1
      ipureintro; rfl
    iexists _, _; isplitr; swap; · iexact HS2
    ipureintro; rfl

end Cert.Kernel.Body

end
-- ==== Proof.KRunLast.lean ====
/-
  The kernel body run on whole staging buffers at the last grid point: the last slab is stored,
  then the whole output is normalised in place.
-/
import proofs.«178506_g1967095022032_cont_sun_m_789_21_alg».proof.Proof.KRunMid

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body at the last point

The second conditional is taken: after the last slab is stored, the whole resident output is
loaded back, its column sums and sums of squares give the statistics, and the normalised output
is stored over the whole buffer. -/

set_option maxHeartbeats 1600000 in
noncomputable def runLast (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S10000x128 .f32) (harg8 : arg8.IsWhole) (arg9 : Memref sig .tc .vmem S10000x128 .f32) (harg9 : arg9.IsWhole) (arg10 : Memref sig .tc .vmem S1x128 .f32) (harg10 : arg10.IsWhole) (arg11 : Memref sig .tc .vmem S1x128 .f32) (harg11 : arg11.IsWhole) (hc0 : ¬condFirst i) (hc1 : condLast i)
    (x0 : Vec F S10000x128 .f32) (x1 : Vec F S400x10000 .f32) (x2 : Vec F S128x128 .f32) (x3 : Vec F S128x128 .f32) (x4 : Vec F S1x128 .f32) (x5 : Vec F S1x128 .f32) (x6 : Vec F S1x128 .f32) (y : Vec F S10000x128 .f32) (s0 : Vec F S10000x128 .f32) :
    { L8 : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y ∗ owns (c : Thread nD τ) arg9 fullShare s0 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (arg8.view.loc (c : Thread nD τ) ↦[arg8.view.set]{fullShare} arg8.view.writes (Elt F) (harg8.unread y) L8) ∗ owns (c : Thread nD τ) arg9 fullShare s0 ∗ (∃ d, owns (c : Thread nD τ) arg10 fullShare d) ∗ (∃ d, owns (c : Thread nD τ) arg11 fullShare d)) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexact H7
    isplitl [HS0]
    · iexists _; isplitr; · ipureintro; exact harg9.read_unread _
      iexact HS0
    isplitl [HS1]
    · iexists _, _; isplitr; swap; · iexact HS1
      ipureintro; rfl
    iexists _, _; isplitr; swap; · iexact HS2
    ipureintro; rfl

end Cert.Kernel.Body

end
-- ==== Proof.LibOverlay.lean ====
/-
  Stores into a buffer, read back whole.

  A buffer held at contents `f`, after a single unmasked store of `w` through a rectangle `r`,
  reads as what `f` read with the rectangle's part replaced by `w` (`Rect.overlay`): under the
  rectangle the payload, elsewhere the old contents. Generic in the view, the shape and the values.
-/
import Idealize.ShloMosaic.Lib.Writes
import Idealize.ShloMosaic.Lib.Memref

namespace Idealize.ShloMosaic

namespace View

variable {sig : RefSig} {κ : Kind} {sp : Space} {s : Shape} {e : EltTy} {Val : EltTy → Type}

/-- After one store of `w` through `r` the buffer reads as its old reading overlaid with `w` on `r`. -/
theorem read_writes_single_eq_overlay (v : View sig κ sp s e) (f : v.ty.Contents Val) (r : Rect s)
    (w : r.shape.Idx → Val e) :
    v.read Val (v.writes Val f [(⟨r, w⟩ : Piece Val s e)]) = r.overlay (v.read Val f) w := by
  funext y
  by_cases hy : y ∈ r.set
  · obtain ⟨x, rfl⟩ : ∃ x, r.emb x = y := r.exists_idx_of_mem hy
    rw [read_writes_cons_emb, Rect.overlay_emb]
  · rw [writes_cons, read_slice_write_of_not_mem r _ _ _ (by rw [Rect.map_emb_univ]; exact hy),
      Rect.overlay_of_not_mem _ _ _ hy]
    rfl

/-- A last store through the whole-shape rectangle at zero offsets (however the zeros are spelt)
    reads back as its payload, whatever the earlier stores and the prior contents. -/
theorem read_writes_cons_unit_zero {S : Shape} (v : View sig κ sp S e) (f : v.ty.Contents Val)
    {off : Fin S.rank → ℕ} (h : off = fun _ => 0) (inb : ∀ a, off a + S.size a ≤ S.size a)
    (w : S.Idx → Val e) (L : List (Piece Val S e)) :
    v.read Val (v.writes Val f ((⟨Rect.unit off S.size inb, w⟩ : Piece Val S e) :: L)) = w := by
  subst h; funext y
  have e := read_writes_cons_emb v f (Rect.whole S) w L y
  rw [Rect.emb_whole_apply] at e
  exact e

end View

end Idealize.ShloMosaic
-- ==== Proof.KSteps.lean ====
/-
  What the kernel body leaves in the resident output and in the support scratch at each kind of
  grid point, as functions of what it was handed; and that the stores the runs found read back
  as these functions.
-/
import proofs.«178506_g1967095022032_cont_sun_m_789_21_alg».proof.Proof.KRunMid
import proofs.«178506_g1967095022032_cont_sun_m_789_21_alg».proof.Proof.KRunFirst
import proofs.«178506_g1967095022032_cont_sun_m_789_21_alg».proof.Proof.KRunLast
import proofs.«178506_g1967095022032_cont_sun_m_789_21_alg».proof.Proof.LibOverlay
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each point leaves, as functions of what it was handed

Point `i` stores one slab of 400 rows, rows `400 i` to `400 i + 399`, into the resident output:
the adjacency block times the support, plus that band of x times W_self, plus the bias row. -/

/-- The rows of the resident output that point `i` stores. -/
abbrev slabRect (i : grid0.Coords) : Rect S10000x128 :=
  Rect.unit (s := S10000x128) (k0_off1 i) S400x128.size (k0_off1_inb i)

/-- The slab point `i` computes, from the input blocks and the support it finds in scratch. -/
def slabOf (i : grid0.Coords) (x0 : Vec F S10000x128 .f32) (x1 : Vec F S400x10000 .f32) (x3 : Vec F S128x128 .f32)
    (x4 : Vec F S1x128 .f32) (s : Vec F S10000x128 .f32) : FVec F S400x128 .f32 :=
  k0_pay4 x1 s (View.ld x0 (slabRect i)) x3 x4

/-- The output after a point that only stores its slab: what it was handed, the slab's rows replaced. -/
def stepMid (i : grid0.Coords) (x0 : Vec F S10000x128 .f32) (x1 : Vec F S400x10000 .f32) (x3 : Vec F S128x128 .f32)
    (x4 : Vec F S1x128 .f32) (y s : Vec F S10000x128 .f32) : Vec F S10000x128 .f32 :=
  (slabRect i).overlay y (slabOf i x0 x1 x3 x4 s)

/-- The support product the first point writes over the whole scratch. -/
def supOf (x0 : Vec F S10000x128 .f32) (x2 : Vec F S128x128 .f32) : Vec F S10000x128 .f32 := k0_pay1 x0 x2

/-- The output after the first point: its slab, computed from the support just written. -/
def stepFirst (i : grid0.Coords) (x0 : Vec F S10000x128 .f32) (x1 : Vec F S400x10000 .f32) (x2 x3 : Vec F S128x128 .f32)
    (x4 : Vec F S1x128 .f32) (y : Vec F S10000x128 .f32) : Vec F S10000x128 .f32 :=
  stepMid i x0 x1 x3 x4 y (supOf x0 x2)

/-- The output after the last point: the last slab stored, then the whole buffer normalised. -/
def stepLast (i : grid0.Coords) (x0 : Vec F S10000x128 .f32) (x1 : Vec F S400x10000 .f32) (x3 : Vec F S128x128 .f32)
    (x4 x5 x6 : Vec F S1x128 .f32) (y s : Vec F S10000x128 .f32) : Vec F S10000x128 .f32 :=
  k0_pay5 (stepMid i x0 x1 x3 x4 y s) x5 x6 (stepMid i x0 x1 x3 x4 y s)

theorem zero2 : (![0, 0] : Fin 2 → ℕ) = fun _ => 0 := by
  funext a; fin_cases a <;> rfl

/-- The middle points' stores, read back: the handed contents with the slab's rows replaced. -/
theorem runMid_read (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S10000x128 .f32) (harg8 : arg8.IsWhole) (arg9 : Memref sig .tc .vmem S10000x128 .f32) (harg9 : arg9.IsWhole) (arg10 : Memref sig .tc .vmem S1x128 .f32) (harg10 : arg10.IsWhole) (arg11 : Memref sig .tc .vmem S1x128 .f32) (harg11 : arg11.IsWhole) (hc0 : ¬condFirst i) (hc1 : ¬condLast i)
    (x0 : Vec F S10000x128 .f32) (x1 : Vec F S400x10000 .f32) (x2 : Vec F S128x128 .f32) (x3 : Vec F S128x128 .f32) (x4 : Vec F S1x128 .f32) (x5 : Vec F S1x128 .f32) (x6 : Vec F S1x128 .f32) (y : Vec F S10000x128 .f32) (s0 : Vec F S10000x128 .f32) :
    arg8.view.read (Elt F) (arg8.view.writes (Elt F) (harg8.unread y) (runMid c i arg1 harg1 arg2 harg2 arg3 harg3 arg4 harg4 arg5 harg5 arg6 harg6 arg7 harg7 arg8 harg8 arg9 harg9 arg10 harg10 arg11 harg11 hc0 hc1 x0 x1 x2 x3 x4 x5 x6 y s0).1)
      = stepMid i x0 x1 x3 x4 y s0 := by
  unfold runMid
  dsimp only
  rw [View.read_writes_single_eq_overlay, harg8.read_unread]
  simp only [View.readAt_eq_ld, Memref.IsWhole.read_unread, View.ld_unit_zero (S := S400x10000) zero2,
    View.ld_unit_zero (S := S10000x128) zero2, View.ld_unit_zero (S := S128x128) zero2, View.ld_unit_zero (S := S1x128) zero2]
  rfl

/-- The first point's store into the output, read back: the handed contents with the first slab's
    rows replaced, the slab computed from the support product just written. -/
theorem runFirst_read8 (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S10000x128 .f32) (harg8 : arg8.IsWhole) (arg9 : Memref sig .tc .vmem S10000x128 .f32) (harg9 : arg9.IsWhole) (arg10 : Memref sig .tc .vmem S1x128 .f32) (harg10 : arg10.IsWhole) (arg11 : Memref sig .tc .vmem S1x128 .f32) (harg11 : arg11.IsWhole) (hc0 : condFirst i) (hc1 : ¬condLast i)
    (x0 : Vec F S10000x128 .f32) (x1 : Vec F S400x10000 .f32) (x2 : Vec F S128x128 .f32) (x3 : Vec F S128x128 .f32) (x4 : Vec F S1x128 .f32) (x5 : Vec F S1x128 .f32) (x6 : Vec F S1x128 .f32) (y : Vec F S10000x128 .f32) :
    arg8.view.read (Elt F) (arg8.view.writes (Elt F) (harg8.unread y) (runFirst c i arg1 harg1 arg2 harg2 arg3 harg3 arg4 harg4 arg5 harg5 arg6 harg6 arg7 harg7 arg8 harg8 arg9 harg9 arg10 harg10 arg11 harg11 hc0 hc1 x0 x1 x2 x3 x4 x5 x6 y).1)
      = stepFirst i x0 x1 x2 x3 x4 y := by
  unfold runFirst
  dsimp only
  sl_unfold_run_names
  rw [View.read_writes_single_eq_overlay, harg8.read_unread]
  simp only [View.readCov_unit_zero (S := S10000x128) arg9.view zero2, View.readAt_eq_ld, Memref.IsWhole.read_unread,
    View.ld_unit_zero (S := S400x10000) zero2, View.ld_unit_zero (S := S10000x128) zero2,
    View.ld_unit_zero (S := S128x128) zero2, View.ld_unit_zero (S := S1x128) zero2]
  rfl

/-- The first point's store into the support scratch, read back over any prior contents: x · W. -/
theorem runFirst_read9 (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S10000x128 .f32) (harg8 : arg8.IsWhole) (arg9 : Memref sig .tc .vmem S10000x128 .f32) (harg9 : arg9.IsWhole) (arg10 : Memref sig .tc .vmem S1x128 .f32) (harg10 : arg10.IsWhole) (arg11 : Memref sig .tc .vmem S1x128 .f32) (harg11 : arg11.IsWhole) (hc0 : condFirst i) (hc1 : ¬condLast i)
    (x0 : Vec F S10000x128 .f32) (x1 : Vec F S400x10000 .f32) (x2 : Vec F S128x128 .f32) (x3 : Vec F S128x128 .f32) (x4 : Vec F S1x128 .f32) (x5 : Vec F S1x128 .f32) (x6 : Vec F S1x128 .f32) (y : Vec F S10000x128 .f32) (f : arg9.view.ty.Contents (Elt F)) :
    arg9.view.read (Elt F) (arg9.view.writes (Elt F) f (runFirst c i arg1 harg1 arg2 harg2 arg3 harg3 arg4 harg4 arg5 harg5 arg6 harg6 arg7 harg7 arg8 harg8 arg9 harg9 arg10 harg10 arg11 harg11 hc0 hc1 x0 x1 x2 x3 x4 x5 x6 y).2.1)
      = supOf x0 x2 := by
  unfold runFirst
  dsimp only
  sl_unfold_run_names
  rw [View.read_writes_cons_unit_zero (S := S10000x128) arg9.view f zero2]
  simp only [View.readAt_eq_ld, Memref.IsWhole.read_unread, View.ld_unit_zero (S := S10000x128) zero2,
    View.ld_unit_zero (S := S128x128) zero2]
  rfl

/-- The last point's stores into the output, read back: the last slab stored, then the whole
    buffer replaced by its normalisation. -/
theorem runLast_read (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S10000x128 .f32) (harg8 : arg8.IsWhole) (arg9 : Memref sig .tc .vmem S10000x128 .f32) (harg9 : arg9.IsWhole) (arg10 : Memref sig .tc .vmem S1x128 .f32) (harg10 : arg10.IsWhole) (arg11 : Memref sig .tc .vmem S1x128 .f32) (harg11 : arg11.IsWhole) (hc0 : ¬condFirst i) (hc1 : condLast i)
    (x0 : Vec F S10000x128 .f32) (x1 : Vec F S400x10000 .f32) (x2 : Vec F S128x128 .f32) (x3 : Vec F S128x128 .f32) (x4 : Vec F S1x128 .f32) (x5 : Vec F S1x128 .f32) (x6 : Vec F S1x128 .f32) (y : Vec F S10000x128 .f32) (s0 : Vec F S10000x128 .f32) :
    arg8.view.read (Elt F) (arg8.view.writes (Elt F) (harg8.unread y) (runLast c i arg1 harg1 arg2 harg2 arg3 harg3 arg4 harg4 arg5 harg5 arg6 harg6 arg7 harg7 arg8 harg8 arg9 harg9 arg10 harg10 arg11 harg11 hc0 hc1 x0 x1 x2 x3 x4 x5 x6 y s0).1)
      = stepLast i x0 x1 x3 x4 x5 x6 y s0 := by
  unfold runLast
  dsimp only
  rw [View.read_writes_cons_unit_zero (S := S10000x128) arg8.view (harg8.unread y) zero2]
  sl_unfold_run_names
  simp only [View.readAt_eq_ld, Memref.IsWhole.read_unread, View.ld_unit_zero (S := S400x10000) zero2,
    View.ld_unit_zero (S := S10000x128) zero2, View.ld_unit_zero (S := S128x128) zero2, View.ld_unit_zero (S := S1x128) zero2,
    View.read_writes_single_eq_overlay]
  rfl

end Cert.Kernel.Body

end
-- ==== Proof.KData.lean ====
/-
  The proof data of the one pipeline: what each staging buffer holds from point to point. The
  seven inputs sit at their blocks; the support scratch holds x · W from the first point on; the
  resident output, whose staging buffer starts at contents nothing names and is filled one slab per
  point, is described by a relation: what a point leaves is a function of what it was handed.
  Then the body at a generic point, by the three runs.
-/
import proofs.«178506_g1967095022032_cont_sun_m_789_21_alg».proof.Proof.KSteps

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers at a point, and the scratch -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S400x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S10000x128 .f32 := win0_7.stage (cfg0.slots t 7)
abbrev hs7 (t : Fin cfg0.N) : (ms7 t).IsWhole := hstage0_7 ((cfg0.slots t 7).cast nbuf0_7)

/-- The three scratch buffers: the support (10000 × 128) and the two small accumulators. -/
abbrev sc0 : Memref sig .tc .vmem S10000x128 .f32 := Memref.whole cc0_scratch0
abbrev sc1 : Memref sig .tc .vmem S1x128 .f32 := Memref.whole cc0_scratch1
abbrev sc2 : Memref sig .tc .vmem S1x128 .f32 := Memref.whole cc0_scratch2

/-- What the region hands the body besides the windows: the three scratch buffers at some
    contents each, and the generator register. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-! ## What is carried from point to point -/

/-- The first grid point. -/
abbrev pt0 : Fin cfg0.N := ⟨0, by decide⟩

/-- The support product as the first point writes it: x · W of the blocks it finds. -/
def supAt (c : Dev nD) : Vec F S10000x128 .f32 := supOf (iblk m c 0 pt0) (iblk m c 2 pt0)

/-- The resident output after point `t`, from what the point was handed: at the first point the
    first slab over it; at the last the last slab and then the normalisation; between, one slab. -/
def stepAt (c : Dev nD) (t : Fin cfg0.N) (y : Vec F S10000x128 .f32) : Vec F S10000x128 .f32 :=
  if t.val = 0 then stepFirst (grid0.coords t) (iblk m c 0 t) (iblk m c 1 t) (iblk m c 2 t) (iblk m c 3 t) (iblk m c 4 t) y
  else if t.val = 24 then stepLast (grid0.coords t) (iblk m c 0 t) (iblk m c 1 t) (iblk m c 3 t) (iblk m c 4 t) (iblk m c 5 t) (iblk m c 6 t) y (supAt m c)
  else stepMid (grid0.coords t) (iblk m c 0 t) (iblk m c 1 t) (iblk m c 3 t) (iblk m c 4 t) y (supAt m c)

/-- The invariant before position `n`: before the first point the scratch holds anything; from
    then on the support scratch holds x · W. The accumulators and the generator are never named. -/
def PhiAt (c : Dev nD) (n : ℕ) : sProp 𝕄 :=
  if n = 0 then
    iprop(iprop((∃ d, owns (c : Thread nD τ) sc0 fullShare d) ∗ (∃ d, owns (c : Thread nD τ) sc1 fullShare d) ∗ (∃ d, owns (c : Thread nD τ) sc2 fullShare d)) ∗ (∃ r, prngReg c r))
  else
    iprop(iprop(owns (c : Thread nD τ) sc0 fullShare (supAt m c) ∗ (∃ d, owns (c : Thread nD τ) sc1 fullShare d) ∗ (∃ d, owns (c : Thread nD τ) sc2 fullShare d)) ∗ (∃ r, prngReg c r))

/-! ## The proof data -/

/-- Exact data for the seven inputs (each staging buffer at its block at every point); the output
    window's entry is a placeholder that the relation below replaces. -/
def dat0 (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
  Φ t := PhiAt m c t.val
  q _ := fullShare
  owed _ := 0

theorem A_eq (c : Dev nD) (w : Fin cfg0.W) : (dat0 m c).A w = V m c (Pipeline.arrRef spec0 w) := by
  dsimp only [dat0]

theorem after_0 (c : Dev nD) (t : Fin cfg0.N) : (dat0 m c).after 0 t = iblk m c 0 t := by dsimp only [dat0]
theorem after_1 (c : Dev nD) (t : Fin cfg0.N) : (dat0 m c).after 1 t = iblk m c 1 t := by dsimp only [dat0]
theorem after_2 (c : Dev nD) (t : Fin cfg0.N) : (dat0 m c).after 2 t = iblk m c 2 t := by dsimp only [dat0]
theorem after_3 (c : Dev nD) (t : Fin cfg0.N) : (dat0 m c).after 3 t = iblk m c 3 t := by dsimp only [dat0]
theorem after_4 (c : Dev nD) (t : Fin cfg0.N) : (dat0 m c).after 4 t = iblk m c 4 t := by dsimp only [dat0]
theorem after_5 (c : Dev nD) (t : Fin cfg0.N) : (dat0 m c).after 5 t = iblk m c 5 t := by dsimp only [dat0]
theorem after_6 (c : Dev nD) (t : Fin cfg0.N) : (dat0 m c).after 6 t = iblk m c 6 t := by dsimp only [dat0]

theorem before_0 (c : Dev nD) (t : Fin cfg0.N) (d) : (dat0 m c).before 0 t d = iblk m c 0 t :=
  before0_0_of m (dat0 m c) (A_eq m c 0) (after_0 m c) t d
theorem before_1 (c : Dev nD) (t : Fin cfg0.N) (d) : (dat0 m c).before 1 t d = iblk m c 1 t :=
  before0_1_of m (dat0 m c) (A_eq m c 1) (after_1 m c) t d
theorem before_2 (c : Dev nD) (t : Fin cfg0.N) (d) : (dat0 m c).before 2 t d = iblk m c 2 t :=
  before0_2_of m (dat0 m c) (A_eq m c 2) (after_2 m c) t d
theorem before_3 (c : Dev nD) (t : Fin cfg0.N) (d) : (dat0 m c).before 3 t d = iblk m c 3 t :=
  before0_3_of m (dat0 m c) (A_eq m c 3) (after_3 m c) t d
theorem before_4 (c : Dev nD) (t : Fin cfg0.N) (d) : (dat0 m c).before 4 t d = iblk m c 4 t :=
  before0_4_of m (dat0 m c) (A_eq m c 4) (after_4 m c) t d
theorem before_5 (c : Dev nD) (t : Fin cfg0.N) (d) : (dat0 m c).before 5 t d = iblk m c 5 t :=
  before0_5_of m (dat0 m c) (A_eq m c 5) (after_5 m c) t d
theorem before_6 (c : Dev nD) (t : Fin cfg0.N) (d) : (dat0 m c).before 6 t d = iblk m c 6 t :=
  before0_6_of m (dat0 m c) (A_eq m c 6) (after_6 m c) t d

/-- The output window's relation: what the body leaves is `stepAt` of what it was handed. -/
def ovr (c : Dev nD) : (w : Fin cfg0.W) → Option (Fin cfg0.N → (Y X : (cfg0.win w).block.Idx → Elt F (cfg0.win w).elt) → Prop)
  | ⟨7, _⟩ => some (fun t Y X => X = stepAt m c t Y)
  | _ => none

/-- The relational data: the inputs exact, the output by its relation. -/
def rd (c : Dev nD) : Pipeline.RDat τ (Elt F) Unit ℕ (UR sig nD τ) ℕ cfg0 c := (dat0 m c).toR.override (ovr m c)

theorem rd_after7 (c : Dev nD) : (rd m c).after 7 = fun t Y X => X = stepAt m c t Y :=
  (dat0 m c).toR.override_after_of_eq_some (ovr := ovr m c) (w := 7) rfl

theorem rd_A (c : Dev nD) (w : Fin cfg0.W) : (rd m c).A w = V m c (Pipeline.arrRef spec0 w) := by
  show (dat0 m c).A w = _; exact A_eq m c w

/-! ## The body at a generic point -/

/-- What the body is handed at point `t`: the invariant, the seven inputs at their blocks, the
    output at contents `y`; -/
def bodyPre (c : Dev nD) (t : Fin cfg0.N) (y : Vec F S10000x128 .f32) : sProp 𝕄 :=
  iprop(PhiAt m c t.val ∗ (dat0 m c).owesAt () t.castSucc
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (iblk m c 3 t)
    ∗ owns (c : Thread nD τ) (ms4 t) fullShare (iblk m c 4 t)
    ∗ owns (c : Thread nD τ) (ms5 t) fullShare (iblk m c 5 t)
    ∗ owns (c : Thread nD τ) (ms6 t) fullShare (iblk m c 6 t)
    ∗ owns (c : Thread nD τ) (ms7 t) fullShare y)

/-- and what it hands back: the output at `stepAt` of what it was handed. -/
def bodyPost (c : Dev nD) (t : Fin cfg0.N) (y : Vec F S10000x128 .f32) : sProp 𝕄 :=
  iprop(PhiAt m c (t.val + 1) ∗ (dat0 m c).owesAt () t.castSucc
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (iblk m c 3 t)
    ∗ owns (c : Thread nD τ) (ms4 t) fullShare (iblk m c 4 t)
    ∗ owns (c : Thread nD τ) (ms5 t) fullShare (iblk m c 5 t)
    ∗ owns (c : Thread nD τ) (ms6 t) fullShare (iblk m c 6 t)
    ∗ owns (c : Thread nD τ) (ms7 t) fullShare (stepAt m c t y))

set_option maxHeartbeats 3200000 in
/-- The body at any point: the point's kind is decided by its number; each kind's run applies; the
    stores it found read back as the step functions; the first point turns the unnamed support
    scratch into x · W, which every later point finds and leaves. -/
theorem sound_body (c : Dev nD) (t : Fin cfg0.N) (y : Vec F S10000x128 .f32) :
    bodyPre m c t y ⊢ wp frame (wpE (defs₀ (F := F)) Variants.none c none) Set.univ (bodyAt0 t) (fun _ => bodyPost m c t y) := by
  unfold bodyPre bodyPost bodyAt0
  have hN : t.val < 25 := lt_of_lt_of_eq t.isLt (show cfg0.N = 25 from N_0)
  by_cases h0 : t.val = 0
  · have ht : t = pt0 := Fin.ext h0
    subst ht
    have hc0 : condFirst (grid0.coords pt0) := (condFirst_iff pt0).mpr rfl
    have hc1 : ¬condLast (grid0.coords pt0) := fun h => by have := (condLast_iff pt0).mp h; omega
    unfold PhiAt stepAt
    rewrite [if_pos h0, if_neg (by omega : ¬(pt0 : Fin cfg0.N).val + 1 = 0), if_pos h0]
    iintro ⟨⟨⟨⟨%ds0, HS0⟩, HS1, HS2⟩, Hg⟩, Ho, H0, H1, H2, H3, H4, H5, H6, H7⟩
    iapply ((runFirst c (grid0.coords pt0) (ms0 pt0) (hs0 pt0) (ms1 pt0) (hs1 pt0) (ms2 pt0) (hs2 pt0) (ms3 pt0) (hs3 pt0) (ms4 pt0) (hs4 pt0) (ms5 pt0) (hs5 pt0) (ms6 pt0) (hs6 pt0) (ms7 pt0) (hs7 pt0) sc0 (Memref.isWhole_whole _) sc1 (Memref.isWhole_whole _) sc2 (Memref.isWhole_whole _) hc0 hc1 (iblk m c 0 pt0) (iblk m c 1 pt0) (iblk m c 2 pt0) (iblk m c 3 pt0) (iblk m c 4 pt0) (iblk m c 5 pt0) (iblk m c 6 pt0) y).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexists ds0; iexact HS0
    isplitl [HS1]; · iexact HS1
    isplitl [HS2]; · iexact HS2
    iintro ⟨H0, H1, H2, H3, H4, H5, H6, H7, ⟨%f9, HS0⟩, HS1, HS2⟩
    isplitl [HS0 HS1 HS2 Hg]
    · isplitl [HS0 HS1 HS2]
      · isplitl [HS0]
        · unfold owns; iexists _; isplitr
          swap; · iexact HS0
          ipureintro; exact runFirst_read9 c _ _ _ _ _ _ _ _ _ _ _ _ _ _ _ _ _ _ _ _ _ _ _ hc0 hc1 _ _ _ _ _ _ _ y f9
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact runFirst_read8 c _ _ _ _ _ _ _ _ _ _ _ _ _ _ _ _ _ _ _ _ _ _ _ hc0 hc1 _ _ _ _ _ _ _ y
  · have hc0 : ¬condFirst (grid0.coords t) := fun h => h0 ((condFirst_iff t).mp h)
    unfold PhiAt stepAt
    rewrite [if_neg h0, if_neg (by omega : ¬t.val + 1 = 0), if_neg h0]
    by_cases h1 : t.val = 24
    · have hc1 : condLast (grid0.coords t) := (condLast_iff t).mpr h1
      rewrite [if_pos h1]
      iintro ⟨⟨⟨HS0, HS1, HS2⟩, Hg⟩, Ho, H0, H1, H2, H3, H4, H5, H6, H7⟩
      iapply ((runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) hc0 hc1 (iblk m c 0 t) (iblk m c 1 t) (iblk m c 2 t) (iblk m c 3 t) (iblk m c 4 t) (iblk m c 5 t) (iblk m c 6 t) y (supAt m c)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      iintro ⟨H0, H1, H2, H3, H4, H5, H6, H7, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact runLast_read c _ _ _ _ _ _ _ _ _ _ _ _ _ _ _ _ _ _ _ _ _ _ _ hc0 hc1 _ _ _ _ _ _ _ y _
    · have hc1 : ¬condLast (grid0.coords t) := fun h => h1 ((condLast_iff t).mp h)
      rewrite [if_neg h1]
      iintro ⟨⟨⟨HS0, HS1, HS2⟩, Hg⟩, Ho, H0, H1, H2, H3, H4, H5, H6, H7⟩
      iapply ((runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) hc0 hc1 (iblk m c 0 t) (iblk m c 1 t) (iblk m c 2 t) (iblk m c 3 t) (iblk m c 4 t) (iblk m c 5 t) (iblk m c 6 t) y (supAt m c)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      iintro ⟨H0, H1, H2, H3, H4, H5, H6, H7, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact runMid_read c _ _ _ _ _ _ _ _ _ _ _ _ _ _ _ _ _ _ _ _ _ _ _ hc0 hc1 _ _ _ _ _ _ _ y _

end Cert.Kernel.Body

end
-- ==== Proof.KFrame.lean ====
/-
  The body obligation of the relational data at every grid point, the run of the whole program
  from it, and the frame: the program terminates without a fault and leaves its arguments unchanged.
-/
import proofs.«178506_g1967095022032_cont_sun_m_789_21_alg».proof.Proof.KData

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body finds in the input windows -/

theorem finds_in_0 (c : Dev nD) (t : Fin cfg0.N) (Yw : (cfg0.win 0).block.Idx → Elt F (cfg0.win 0).elt)
    (h : (rd m c).Finds 0 t Yw) : Yw = iblk m c 0 t := by
  obtain ⟨d, hd⟩ := (dat0 m c).toR_finds 0 t Yw (((dat0 m c).toR.override_finds (ovr := ovr m c) (w := 0) rfl t Yw).mp h)
  rw [hd, before_0]

theorem leaves_in_0 (c : Dev nD) (t : Fin cfg0.N) (Yw : (cfg0.win 0).block.Idx → Elt F (cfg0.win 0).elt) :
    (rd m c).after 0 t Yw (iblk m c 0 t) := by
  have e : (rd m c).after 0 = (dat0 m c).toR.after 0 := (dat0 m c).toR.override_after_of_eq_none (ovr := ovr m c) (w := 0) rfl
  rw [e]
  show (dat0 m c).Leaves 0 t (iblk m c 0 t)
  unfold Dat.Leaves
  exact (after_0 m c t).symm

theorem finds_in_1 (c : Dev nD) (t : Fin cfg0.N) (Yw : (cfg0.win 1).block.Idx → Elt F (cfg0.win 1).elt)
    (h : (rd m c).Finds 1 t Yw) : Yw = iblk m c 1 t := by
  obtain ⟨d, hd⟩ := (dat0 m c).toR_finds 1 t Yw (((dat0 m c).toR.override_finds (ovr := ovr m c) (w := 1) rfl t Yw).mp h)
  rw [hd, before_1]

theorem leaves_in_1 (c : Dev nD) (t : Fin cfg0.N) (Yw : (cfg0.win 1).block.Idx → Elt F (cfg0.win 1).elt) :
    (rd m c).after 1 t Yw (iblk m c 1 t) := by
  have e : (rd m c).after 1 = (dat0 m c).toR.after 1 := (dat0 m c).toR.override_after_of_eq_none (ovr := ovr m c) (w := 1) rfl
  rw [e]
  show (dat0 m c).Leaves 1 t (iblk m c 1 t)
  unfold Dat.Leaves
  exact (after_1 m c t).symm

theorem finds_in_2 (c : Dev nD) (t : Fin cfg0.N) (Yw : (cfg0.win 2).block.Idx → Elt F (cfg0.win 2).elt)
    (h : (rd m c).Finds 2 t Yw) : Yw = iblk m c 2 t := by
  obtain ⟨d, hd⟩ := (dat0 m c).toR_finds 2 t Yw (((dat0 m c).toR.override_finds (ovr := ovr m c) (w := 2) rfl t Yw).mp h)
  rw [hd, before_2]

theorem leaves_in_2 (c : Dev nD) (t : Fin cfg0.N) (Yw : (cfg0.win 2).block.Idx → Elt F (cfg0.win 2).elt) :
    (rd m c).after 2 t Yw (iblk m c 2 t) := by
  have e : (rd m c).after 2 = (dat0 m c).toR.after 2 := (dat0 m c).toR.override_after_of_eq_none (ovr := ovr m c) (w := 2) rfl
  rw [e]
  show (dat0 m c).Leaves 2 t (iblk m c 2 t)
  unfold Dat.Leaves
  exact (after_2 m c t).symm

theorem finds_in_3 (c : Dev nD) (t : Fin cfg0.N) (Yw : (cfg0.win 3).block.Idx → Elt F (cfg0.win 3).elt)
    (h : (rd m c).Finds 3 t Yw) : Yw = iblk m c 3 t := by
  obtain ⟨d, hd⟩ := (dat0 m c).toR_finds 3 t Yw (((dat0 m c).toR.override_finds (ovr := ovr m c) (w := 3) rfl t Yw).mp h)
  rw [hd, before_3]

theorem leaves_in_3 (c : Dev nD) (t : Fin cfg0.N) (Yw : (cfg0.win 3).block.Idx → Elt F (cfg0.win 3).elt) :
    (rd m c).after 3 t Yw (iblk m c 3 t) := by
  have e : (rd m c).after 3 = (dat0 m c).toR.after 3 := (dat0 m c).toR.override_after_of_eq_none (ovr := ovr m c) (w := 3) rfl
  rw [e]
  show (dat0 m c).Leaves 3 t (iblk m c 3 t)
  unfold Dat.Leaves
  exact (after_3 m c t).symm

theorem finds_in_4 (c : Dev nD) (t : Fin cfg0.N) (Yw : (cfg0.win 4).block.Idx → Elt F (cfg0.win 4).elt)
    (h : (rd m c).Finds 4 t Yw) : Yw = iblk m c 4 t := by
  obtain ⟨d, hd⟩ := (dat0 m c).toR_finds 4 t Yw (((dat0 m c).toR.override_finds (ovr := ovr m c) (w := 4) rfl t Yw).mp h)
  rw [hd, before_4]

theorem leaves_in_4 (c : Dev nD) (t : Fin cfg0.N) (Yw : (cfg0.win 4).block.Idx → Elt F (cfg0.win 4).elt) :
    (rd m c).after 4 t Yw (iblk m c 4 t) := by
  have e : (rd m c).after 4 = (dat0 m c).toR.after 4 := (dat0 m c).toR.override_after_of_eq_none (ovr := ovr m c) (w := 4) rfl
  rw [e]
  show (dat0 m c).Leaves 4 t (iblk m c 4 t)
  unfold Dat.Leaves
  exact (after_4 m c t).symm

theorem finds_in_5 (c : Dev nD) (t : Fin cfg0.N) (Yw : (cfg0.win 5).block.Idx → Elt F (cfg0.win 5).elt)
    (h : (rd m c).Finds 5 t Yw) : Yw = iblk m c 5 t := by
  obtain ⟨d, hd⟩ := (dat0 m c).toR_finds 5 t Yw (((dat0 m c).toR.override_finds (ovr := ovr m c) (w := 5) rfl t Yw).mp h)
  rw [hd, before_5]

theorem leaves_in_5 (c : Dev nD) (t : Fin cfg0.N) (Yw : (cfg0.win 5).block.Idx → Elt F (cfg0.win 5).elt) :
    (rd m c).after 5 t Yw (iblk m c 5 t) := by
  have e : (rd m c).after 5 = (dat0 m c).toR.after 5 := (dat0 m c).toR.override_after_of_eq_none (ovr := ovr m c) (w := 5) rfl
  rw [e]
  show (dat0 m c).Leaves 5 t (iblk m c 5 t)
  unfold Dat.Leaves
  exact (after_5 m c t).symm

theorem finds_in_6 (c : Dev nD) (t : Fin cfg0.N) (Yw : (cfg0.win 6).block.Idx → Elt F (cfg0.win 6).elt)
    (h : (rd m c).Finds 6 t Yw) : Yw = iblk m c 6 t := by
  obtain ⟨d, hd⟩ := (dat0 m c).toR_finds 6 t Yw (((dat0 m c).toR.override_finds (ovr := ovr m c) (w := 6) rfl t Yw).mp h)
  rw [hd, before_6]

theorem leaves_in_6 (c : Dev nD) (t : Fin cfg0.N) (Yw : (cfg0.win 6).block.Idx → Elt F (cfg0.win 6).elt) :
    (rd m c).after 6 t Yw (iblk m c 6 t) := by
  have e : (rd m c).after 6 = (dat0 m c).toR.after 6 := (dat0 m c).toR.override_after_of_eq_none (ovr := ovr m c) (w := 6) rfl
  rw [e]
  show (dat0 m c).Leaves 6 t (iblk m c 6 t)
  unfold Dat.Leaves
  exact (after_6 m c t).symm

/-! ## The body obligation -/

set_option maxHeartbeats 1600000 in
/-- At every point, whatever the output's staging buffer holds: the inputs are found at their blocks
    and left there, the output is left at `stepAt` of what was found. -/
theorem body_obligation (c : Dev nD) : (rd m c).BodyObligation (defs₀ (F := F)) Variants.none () Set.univ := fun t Y hY => by
  have e0 := finds_in_0 m c t (Y 0) (hY 0)
  have e1 := finds_in_1 m c t (Y 1) (hY 1)
  have e2 := finds_in_2 m c t (Y 2) (hY 2)
  have e3 := finds_in_3 m c t (Y 3) (hY 3)
  have e4 := finds_in_4 m c t (Y 4) (hY 4)
  have e5 := finds_in_5 m c t (Y 5) (hY 5)
  have e6 := finds_in_6 m c t (Y 6) (hY 6)
  rw [bigSep_W0, bigSep_W0]
  refine (?hpre : _ ⊢ bodyPre m c t (Y 7)).trans ((sound_body m c t (Y 7)).trans (wp_mono _ _ _ ?hpost))
  case hpre =>
    unfold bodyPre
    rw [e0, e1, e2, e3, e4, e5, e6]
    exact .rfl
  case hpost =>
    intro _
    unfold bodyPost
    rewrite [show (rd m c).Φ t.succ = PhiAt m c (t.val + 1) from rfl,
      show (rd m c).owesAt () t.succ = (dat0 m c).owesAt () t.castSucc from rfl]
    iintro ⟨HP, Ho, H0, H1, H2, H3, H4, H5, H6, H7⟩
    isplitl [HP]; · iexact HP
    isplitl [Ho]; · iexact Ho
    isplitl [H0]
    · iexists (iblk m c 0 t); isplitr
      · ipureintro; exact leaves_in_0 m c t _
      · iexact H0
    isplitl [H1]
    · iexists (iblk m c 1 t); isplitr
      · ipureintro; exact leaves_in_1 m c t _
      · iexact H1
    isplitl [H2]
    · iexists (iblk m c 2 t); isplitr
      · ipureintro; exact leaves_in_2 m c t _
      · iexact H2
    isplitl [H3]
    · iexists (iblk m c 3 t); isplitr
      · ipureintro; exact leaves_in_3 m c t _
      · iexact H3
    isplitl [H4]
    · iexists (iblk m c 4 t); isplitr
      · ipureintro; exact leaves_in_4 m c t _
      · iexact H4
    isplitl [H5]
    · iexists (iblk m c 5 t); isplitr
      · ipureintro; exact leaves_in_5 m c t _
      · iexact H5
    isplitl [H6]
    · iexists (iblk m c 6 t); isplitr
      · ipureintro; exact leaves_in_6 m c t _
      · iexact H6
    iexists (stepAt m c t (Y 7)); isplitr
    · ipureintro; rw [rd_after7]
    · iexact H7

/-! ## Entry and exit of the invariant -/

theorem hin (c : Dev nD) : Pipeline.ΦA spec0 c ⊢ (rd m c).Φ 0 := by
  rw [show (rd m c).Φ 0 = PhiAt m c 0 from rfl, PhiA_eq]
  unfold PhiAt
  rw [if_pos rfl]

theorem hout (c : Dev nD) : (rd m c).Φ (Fin.last cfg0.N) ⊢ Pipeline.ΦA spec0 c := by
  rw [show (rd m c).Φ (Fin.last cfg0.N) = PhiAt m c (Fin.last cfg0.N).val from rfl, PhiA_eq]
  unfold PhiAt
  rw [if_neg (by decide : ¬(Fin.last cfg0.N).val = 0)]
  iintro ⟨⟨HS0, HS1, HS2⟩, Hg⟩
  isplitl [HS0 HS1 HS2]
  · isplitl [HS0]; · iexists _; iexact HS0
    isplitl [HS1]; · iexact HS1
    iexact HS2
  iexact Hg

/-! ## The run and the frame -/

set_option backward.isDefEq.respectTransparency.types false in
/-- Every weakly fair execution of the program terminates; each windowed array ends at contents the
    relational data allow, every other unscoped buffer as the region found it. -/
theorem run_main : θ_run defs (onTc (τ := τ) (main (F := F))) (s₀ m ρ) (Pipeline.RDat.FramePost (cfgs 0) (fun c => rd m c) (V m)) :=
  Pipeline.RDat.θ_run_frame_track cfgs (0 : Fin 1) launch0 defs₀ Variants.none (fun c => rd m c) m ρ main
    (hbody := fun c => body_obligation m c) (hshare := fun c => (rd m c).share_full fun _ => rfl)
    (howed := fun _ _ => rfl) (V := V m) (hmain := hmain m Variants.none) (hA := rd_A m) (hin := hin m) (hout := hout m)

/-- The program runs and leaves its seven argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(Eq.mp (congrFun ((rd m c).ArrAt_in 0 rfl _) _) ((h c).1 0)).trans ((rd_A m c 0).trans (V_main_arg0 m c)),
      (Eq.mp (congrFun ((rd m c).ArrAt_in 1 rfl _) _) ((h c).1 1)).trans ((rd_A m c 1).trans (V_main_arg1 m c)),
      (Eq.mp (congrFun ((rd m c).ArrAt_in 2 rfl _) _) ((h c).1 2)).trans ((rd_A m c 2).trans (V_main_arg2 m c)),
      (Eq.mp (congrFun ((rd m c).ArrAt_in 3 rfl _) _) ((h c).1 3)).trans ((rd_A m c 3).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) (run_main m ρ)

end Cert.Kernel.Body

end
-- ==== Proof.KIRunMid.lean ====
/-
  The kernel body run on whole staging buffers, at the grid points that take neither of its two
  conditionals (points 1 to 23): which stores it makes and what it leaves where.
-/
import proofs.«178506_g1967095022032_cont_sun_m_789_21_alg».proof.Proof.Gen.KernelIdeal.Frame
import proofs.«178506_g1967095022032_cont_sun_m_789_21_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## Which grid points take which branch

The body has two conditionals on the grid coordinate: the first is taken at point 0 only (the
support product and the zeroing of the two small accumulators), the second at point 24 only (the
normalisation of the whole resident output). -/

/-- The first conditional's test, as the body computes it from the coordinate. -/
abbrev condFirst (i : grid0.Coords) : Prop := (Scalar.cmpi .ne (Scalar.extui (Scalar.cmpi .eq (BitVec.ofNat 32 (i 0).val) 0#32)) 0#32) = 1#1
theorem condFirst_iff : ∀ t : Fin cfg0.N, condFirst (grid0.coords t) ↔ t.val = 0 :=
  (by decide +kernel : ∀ t : Fin grid0.N, condFirst (grid0.coords t) ↔ t.val = 0)

/-- The second conditional's test. -/
abbrev condLast (i : grid0.Coords) : Prop := (Scalar.cmpi .ne (Scalar.extui (Scalar.cmpi .eq (BitVec.ofNat 32 (i 0).val) 24#32)) 0#32) = 1#1
theorem condLast_iff : ∀ t : Fin cfg0.N, condLast (grid0.coords t) ↔ t.val = 24 :=
  (by decide +kernel : ∀ t : Fin grid0.N, condLast (grid0.coords t) ↔ t.val = 24)

/-! ## The body on whole staging buffers, at a point that takes neither branch

Handed the seven input blocks, the resident output at contents `y` and the support scratch at
`s0`, the body stores one slab of 400 rows into the output and leaves everything else as found.
The list of stores is found by running the body; it is the witness of the subtype. -/

set_option maxHeartbeats 1600000 in
noncomputable def runMid (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S10000x128 .f32) (harg8 : arg8.IsWhole) (arg9 : Memref sig .tc .vmem S10000x128 .f32) (harg9 : arg9.IsWhole) (arg10 : Memref sig .tc .vmem S1x128 .f32) (harg10 : arg10.IsWhole) (arg11 : Memref sig .tc .vmem S1x128 .f32) (harg11 : arg11.IsWhole) (hc0 : ¬condFirst i) (hc1 : ¬condLast i)
    (x0 : Vec F S10000x128 .f32) (x1 : Vec F S400x10000 .f32) (x2 : Vec F S128x128 .f32) (x3 : Vec F S128x128 .f32) (x4 : Vec F S1x128 .f32) (x5 : Vec F S1x128 .f32) (x6 : Vec F S1x128 .f32) (y : Vec F S10000x128 .f32) (s0 : Vec F S10000x128 .f32) :
    { L8 : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y ∗ owns (c : Thread nD τ) arg9 fullShare s0 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (arg8.view.loc (c : Thread nD τ) ↦[arg8.view.set]{fullShare} arg8.view.writes (Elt F) (harg8.unread y) L8) ∗ owns (c : Thread nD τ) arg9 fullShare s0 ∗ (∃ d, owns (c : Thread nD τ) arg10 fullShare d) ∗ (∃ d, owns (c : Thread nD τ) arg11 fullShare d)) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexact H7
    isplitl [HS0]
    · iexists _; isplitr; · ipureintro; exact harg9.read_unread _
      iexact HS0
    isplitl [HS1]
    · iexists _, _; isplitr; swap; · iexact HS1
      ipureintro; rfl
    iexists _, _; isplitr; swap; · iexact HS2
    ipureintro; rfl

end Cert.KernelIdeal.Body

end
-- ==== Proof.KIRunFirst.lean ====
/-
  The kernel body run on whole staging buffers at the first grid point: the support product is
  written, the accumulators zeroed, the first slab of the output stored.
-/
import proofs.«178506_g1967095022032_cont_sun_m_789_21_alg».proof.Proof.KIRunMid

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## The body at the first point

The first conditional is taken: the support product x · W is stored over the whole support
scratch (handed at contents nothing names), the two small accumulators are zeroed, and then the
first slab of the output is stored, computed from the support just written. -/

set_option maxHeartbeats 1600000 in
noncomputable def runFirst (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S10000x128 .f32) (harg8 : arg8.IsWhole) (arg9 : Memref sig .tc .vmem S10000x128 .f32) (harg9 : arg9.IsWhole) (arg10 : Memref sig .tc .vmem S1x128 .f32) (harg10 : arg10.IsWhole) (arg11 : Memref sig .tc .vmem S1x128 .f32) (harg11 : arg11.IsWhole) (hc0 : condFirst i) (hc1 : ¬condLast i)
    (x0 : Vec F S10000x128 .f32) (x1 : Vec F S400x10000 .f32) (x2 : Vec F S128x128 .f32) (x3 : Vec F S128x128 .f32) (x4 : Vec F S1x128 .f32) (x5 : Vec F S1x128 .f32) (x6 : Vec F S1x128 .f32) (y : Vec F S10000x128 .f32) :
    Σ' (L8 : List (View.Piece (Elt F) S10000x128 .f32)), { LS : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (arg8.view.loc (c : Thread nD τ) ↦[arg8.view.set]{fullShare} arg8.view.writes (Elt F) (harg8.unread y) L8) ∗ (∃ f, arg9.view.loc (c : Thread nD τ) ↦[arg9.view.set]{fullShare} arg9.view.writes (Elt F) f LS) ∗ (∃ d, owns (c : Thread nD τ) arg10 fullShare d) ∗ (∃ d, owns (c : Thread nD τ) arg11 fullShare d)) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexact H7
    isplitl [HS0]; · iexists fs0; iexact HS0
    isplitl [HS1]
    · iexists _, _; isplitr; swap; · iexact HS1
      ipureintro; rfl
    iexists _, _; isplitr; swap; · iexact HS2
    ipureintro; rfl

end Cert.KernelIdeal.Body

end
-- ==== Proof.KIRunLast.lean ====
/-
  The kernel body run on whole staging buffers at the last grid point: the last slab is stored,
  then the whole output is normalised in place.
-/
import proofs.«178506_g1967095022032_cont_sun_m_789_21_alg».proof.Proof.KIRunMid

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## The body at the last point

The second conditional is taken: after the last slab is stored, the whole resident output is
loaded back, its column sums and sums of squares give the statistics, and the normalised output
is stored over the whole buffer. -/

set_option maxHeartbeats 1600000 in
noncomputable def runLast (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S10000x128 .f32) (harg8 : arg8.IsWhole) (arg9 : Memref sig .tc .vmem S10000x128 .f32) (harg9 : arg9.IsWhole) (arg10 : Memref sig .tc .vmem S1x128 .f32) (harg10 : arg10.IsWhole) (arg11 : Memref sig .tc .vmem S1x128 .f32) (harg11 : arg11.IsWhole) (hc0 : ¬condFirst i) (hc1 : condLast i)
    (x0 : Vec F S10000x128 .f32) (x1 : Vec F S400x10000 .f32) (x2 : Vec F S128x128 .f32) (x3 : Vec F S128x128 .f32) (x4 : Vec F S1x128 .f32) (x5 : Vec F S1x128 .f32) (x6 : Vec F S1x128 .f32) (y : Vec F S10000x128 .f32) (s0 : Vec F S10000x128 .f32) :
    { L8 : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y ∗ owns (c : Thread nD τ) arg9 fullShare s0 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (arg8.view.loc (c : Thread nD τ) ↦[arg8.view.set]{fullShare} arg8.view.writes (Elt F) (harg8.unread y) L8) ∗ owns (c : Thread nD τ) arg9 fullShare s0 ∗ (∃ d, owns (c : Thread nD τ) arg10 fullShare d) ∗ (∃ d, owns (c : Thread nD τ) arg11 fullShare d)) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexact H7
    isplitl [HS0]
    · iexists _; isplitr; · ipureintro; exact harg9.read_unread _
      iexact HS0
    isplitl [HS1]
    · iexists _, _; isplitr; swap; · iexact HS1
      ipureintro; rfl
    iexists _, _; isplitr; swap; · iexact HS2
    ipureintro; rfl

end Cert.KernelIdeal.Body

end
-- ==== Proof.KISteps.lean ====
/-
  What the kernel body leaves in the resident output and in the support scratch at each kind of
  grid point, as functions of what it was handed; and that the stores the runs found read back
  as these functions.
-/
import proofs.«178506_g1967095022032_cont_sun_m_789_21_alg».proof.Proof.KIRunMid
import proofs.«178506_g1967095022032_cont_sun_m_789_21_alg».proof.Proof.KIRunFirst
import proofs.«178506_g1967095022032_cont_sun_m_789_21_alg».proof.Proof.KIRunLast
import proofs.«178506_g1967095022032_cont_sun_m_789_21_alg».proof.Proof.LibOverlay
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## What each point leaves, as functions of what it was handed

Point `i` stores one slab of 400 rows, rows `400 i` to `400 i + 399`, into the resident output:
the adjacency block times the support, plus that band of x times W_self, plus the bias row. -/

/-- The rows of the resident output that point `i` stores. -/
abbrev slabRect (i : grid0.Coords) : Rect S10000x128 :=
  Rect.unit (s := S10000x128) (k0_off1 i) S400x128.size (k0_off1_inb i)

/-- The slab point `i` computes, from the input blocks and the support it finds in scratch. -/
def slabOf (i : grid0.Coords) (x0 : Vec F S10000x128 .f32) (x1 : Vec F S400x10000 .f32) (x3 : Vec F S128x128 .f32)
    (x4 : Vec F S1x128 .f32) (s : Vec F S10000x128 .f32) : FVec F S400x128 .f32 :=
  k0_pay4 x1 s (View.ld x0 (slabRect i)) x3 x4

/-- The output after a point that only stores its slab: what it was handed, the slab's rows replaced. -/
def stepMid (i : grid0.Coords) (x0 : Vec F S10000x128 .f32) (x1 : Vec F S400x10000 .f32) (x3 : Vec F S128x128 .f32)
    (x4 : Vec F S1x128 .f32) (y s : Vec F S10000x128 .f32) : Vec F S10000x128 .f32 :=
  (slabRect i).overlay y (slabOf i x0 x1 x3 x4 s)

/-- The support product the first point writes over the whole scratch. -/
def supOf (x0 : Vec F S10000x128 .f32) (x2 : Vec F S128x128 .f32) : Vec F S10000x128 .f32 := k0_pay1 x0 x2

/-- The output after the first point: its slab, computed from the support just written. -/
def stepFirst (i : grid0.Coords) (x0 : Vec F S10000x128 .f32) (x1 : Vec F S400x10000 .f32) (x2 x3 : Vec F S128x128 .f32)
    (x4 : Vec F S1x128 .f32) (y : Vec F S10000x128 .f32) : Vec F S10000x128 .f32 :=
  stepMid i x0 x1 x3 x4 y (supOf x0 x2)

/-- The output after the last point: the last slab stored, then the whole buffer normalised. -/
def stepLast (i : grid0.Coords) (x0 : Vec F S10000x128 .f32) (x1 : Vec F S400x10000 .f32) (x3 : Vec F S128x128 .f32)
    (x4 x5 x6 : Vec F S1x128 .f32) (y s : Vec F S10000x128 .f32) : Vec F S10000x128 .f32 :=
  k0_pay5 (stepMid i x0 x1 x3 x4 y s) x5 x6 (stepMid i x0 x1 x3 x4 y s)

theorem zero2 : (![0, 0] : Fin 2 → ℕ) = fun _ => 0 := by
  funext a; fin_cases a <;> rfl

/-- The middle points' stores, read back: the handed contents with the slab's rows replaced. -/
theorem runMid_read (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S10000x128 .f32) (harg8 : arg8.IsWhole) (arg9 : Memref sig .tc .vmem S10000x128 .f32) (harg9 : arg9.IsWhole) (arg10 : Memref sig .tc .vmem S1x128 .f32) (harg10 : arg10.IsWhole) (arg11 : Memref sig .tc .vmem S1x128 .f32) (harg11 : arg11.IsWhole) (hc0 : ¬condFirst i) (hc1 : ¬condLast i)
    (x0 : Vec F S10000x128 .f32) (x1 : Vec F S400x10000 .f32) (x2 : Vec F S128x128 .f32) (x3 : Vec F S128x128 .f32) (x4 : Vec F S1x128 .f32) (x5 : Vec F S1x128 .f32) (x6 : Vec F S1x128 .f32) (y : Vec F S10000x128 .f32) (s0 : Vec F S10000x128 .f32) :
    arg8.view.read (Elt F) (arg8.view.writes (Elt F) (harg8.unread y) (runMid c i arg1 harg1 arg2 harg2 arg3 harg3 arg4 harg4 arg5 harg5 arg6 harg6 arg7 harg7 arg8 harg8 arg9 harg9 arg10 harg10 arg11 harg11 hc0 hc1 x0 x1 x2 x3 x4 x5 x6 y s0).1)
      = stepMid i x0 x1 x3 x4 y s0 := by
  unfold runMid
  dsimp only
  rw [View.read_writes_single_eq_overlay, harg8.read_unread]
  simp only [View.readAt_eq_ld, Memref.IsWhole.read_unread, View.ld_unit_zero (S := S400x10000) zero2,
    View.ld_unit_zero (S := S10000x128) zero2, View.ld_unit_zero (S := S128x128) zero2, View.ld_unit_zero (S := S1x128) zero2]
  rfl

/-- The first point's store into the output, read back: the handed contents with the first slab's
    rows replaced, the slab computed from the support product just written. -/
theorem runFirst_read8 (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S10000x128 .f32) (harg8 : arg8.IsWhole) (arg9 : Memref sig .tc .vmem S10000x128 .f32) (harg9 : arg9.IsWhole) (arg10 : Memref sig .tc .vmem S1x128 .f32) (harg10 : arg10.IsWhole) (arg11 : Memref sig .tc .vmem S1x128 .f32) (harg11 : arg11.IsWhole) (hc0 : condFirst i) (hc1 : ¬condLast i)
    (x0 : Vec F S10000x128 .f32) (x1 : Vec F S400x10000 .f32) (x2 : Vec F S128x128 .f32) (x3 : Vec F S128x128 .f32) (x4 : Vec F S1x128 .f32) (x5 : Vec F S1x128 .f32) (x6 : Vec F S1x128 .f32) (y : Vec F S10000x128 .f32) :
    arg8.view.read (Elt F) (arg8.view.writes (Elt F) (harg8.unread y) (runFirst c i arg1 harg1 arg2 harg2 arg3 harg3 arg4 harg4 arg5 harg5 arg6 harg6 arg7 harg7 arg8 harg8 arg9 harg9 arg10 harg10 arg11 harg11 hc0 hc1 x0 x1 x2 x3 x4 x5 x6 y).1)
      = stepFirst i x0 x1 x2 x3 x4 y := by
  unfold runFirst
  dsimp only
  sl_unfold_run_names
  rw [View.read_writes_single_eq_overlay, harg8.read_unread]
  simp only [View.readCov_unit_zero (S := S10000x128) arg9.view zero2, View.readAt_eq_ld, Memref.IsWhole.read_unread,
    View.ld_unit_zero (S := S400x10000) zero2, View.ld_unit_zero (S := S10000x128) zero2,
    View.ld_unit_zero (S := S128x128) zero2, View.ld_unit_zero (S := S1x128) zero2]
  rfl

/-- The first point's store into the support scratch, read back over any prior contents: x · W. -/
theorem runFirst_read9 (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S10000x128 .f32) (harg8 : arg8.IsWhole) (arg9 : Memref sig .tc .vmem S10000x128 .f32) (harg9 : arg9.IsWhole) (arg10 : Memref sig .tc .vmem S1x128 .f32) (harg10 : arg10.IsWhole) (arg11 : Memref sig .tc .vmem S1x128 .f32) (harg11 : arg11.IsWhole) (hc0 : condFirst i) (hc1 : ¬condLast i)
    (x0 : Vec F S10000x128 .f32) (x1 : Vec F S400x10000 .f32) (x2 : Vec F S128x128 .f32) (x3 : Vec F S128x128 .f32) (x4 : Vec F S1x128 .f32) (x5 : Vec F S1x128 .f32) (x6 : Vec F S1x128 .f32) (y : Vec F S10000x128 .f32) (f : arg9.view.ty.Contents (Elt F)) :
    arg9.view.read (Elt F) (arg9.view.writes (Elt F) f (runFirst c i arg1 harg1 arg2 harg2 arg3 harg3 arg4 harg4 arg5 harg5 arg6 harg6 arg7 harg7 arg8 harg8 arg9 harg9 arg10 harg10 arg11 harg11 hc0 hc1 x0 x1 x2 x3 x4 x5 x6 y).2.1)
      = supOf x0 x2 := by
  unfold runFirst
  dsimp only
  sl_unfold_run_names
  rw [View.read_writes_cons_unit_zero (S := S10000x128) arg9.view f zero2]
  simp only [View.readAt_eq_ld, Memref.IsWhole.read_unread, View.ld_unit_zero (S := S10000x128) zero2,
    View.ld_unit_zero (S := S128x128) zero2]
  rfl

/-- The last point's stores into the output, read back: the last slab stored, then the whole
    buffer replaced by its normalisation. -/
theorem runLast_read (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S10000x128 .f32) (harg8 : arg8.IsWhole) (arg9 : Memref sig .tc .vmem S10000x128 .f32) (harg9 : arg9.IsWhole) (arg10 : Memref sig .tc .vmem S1x128 .f32) (harg10 : arg10.IsWhole) (arg11 : Memref sig .tc .vmem S1x128 .f32) (harg11 : arg11.IsWhole) (hc0 : ¬condFirst i) (hc1 : condLast i)
    (x0 : Vec F S10000x128 .f32) (x1 : Vec F S400x10000 .f32) (x2 : Vec F S128x128 .f32) (x3 : Vec F S128x128 .f32) (x4 : Vec F S1x128 .f32) (x5 : Vec F S1x128 .f32) (x6 : Vec F S1x128 .f32) (y : Vec F S10000x128 .f32) (s0 : Vec F S10000x128 .f32) :
    arg8.view.read (Elt F) (arg8.view.writes (Elt F) (harg8.unread y) (runLast c i arg1 harg1 arg2 harg2 arg3 harg3 arg4 harg4 arg5 harg5 arg6 harg6 arg7 harg7 arg8 harg8 arg9 harg9 arg10 harg10 arg11 harg11 hc0 hc1 x0 x1 x2 x3 x4 x5 x6 y s0).1)
      = stepLast i x0 x1 x3 x4 x5 x6 y s0 := by
  unfold runLast
  dsimp only
  rw [View.read_writes_cons_unit_zero (S := S10000x128) arg8.view (harg8.unread y) zero2]
  sl_unfold_run_names
  simp only [View.readAt_eq_ld, Memref.IsWhole.read_unread, View.ld_unit_zero (S := S400x10000) zero2,
    View.ld_unit_zero (S := S10000x128) zero2, View.ld_unit_zero (S := S128x128) zero2, View.ld_unit_zero (S := S1x128) zero2,
    View.read_writes_single_eq_overlay]
  rfl

end Cert.KernelIdeal.Body

end
-- ==== Proof.KIData.lean ====
/-
  The proof data of the one pipeline: what each staging buffer holds from point to point. The
  seven inputs sit at their blocks; the support scratch holds x · W from the first point on; the
  resident output, whose staging buffer starts at contents nothing names and is filled one slab per
  point, is described by a relation: what a point leaves is a function of what it was handed.
  Then the body at a generic point, by the three runs.
-/
import proofs.«178506_g1967095022032_cont_sun_m_789_21_alg».proof.Proof.KISteps

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The staging buffers at a point, and the scratch -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S400x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S10000x128 .f32 := win0_7.stage (cfg0.slots t 7)
abbrev hs7 (t : Fin cfg0.N) : (ms7 t).IsWhole := hstage0_7 ((cfg0.slots t 7).cast nbuf0_7)

/-- The three scratch buffers: the support (10000 × 128) and the two small accumulators. -/
abbrev sc0 : Memref sig .tc .vmem S10000x128 .f32 := Memref.whole cc0_scratch0
abbrev sc1 : Memref sig .tc .vmem S1x128 .f32 := Memref.whole cc0_scratch1
abbrev sc2 : Memref sig .tc .vmem S1x128 .f32 := Memref.whole cc0_scratch2

/-- What the region hands the body besides the windows: the three scratch buffers at some
    contents each, and the generator register. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-! ## What is carried from point to point -/

/-- The first grid point. -/
abbrev pt0 : Fin cfg0.N := ⟨0, by decide⟩

/-- The support product as the first point writes it: x · W of the blocks it finds. -/
def supAt (c : Dev nD) : Vec F S10000x128 .f32 := supOf (iblk m c 0 pt0) (iblk m c 2 pt0)

/-- The resident output after point `t`, from what the point was handed: at the first point the
    first slab over it; at the last the last slab and then the normalisation; between, one slab. -/
def stepAt (c : Dev nD) (t : Fin cfg0.N) (y : Vec F S10000x128 .f32) : Vec F S10000x128 .f32 :=
  if t.val = 0 then stepFirst (grid0.coords t) (iblk m c 0 t) (iblk m c 1 t) (iblk m c 2 t) (iblk m c 3 t) (iblk m c 4 t) y
  else if t.val = 24 then stepLast (grid0.coords t) (iblk m c 0 t) (iblk m c 1 t) (iblk m c 3 t) (iblk m c 4 t) (iblk m c 5 t) (iblk m c 6 t) y (supAt m c)
  else stepMid (grid0.coords t) (iblk m c 0 t) (iblk m c 1 t) (iblk m c 3 t) (iblk m c 4 t) y (supAt m c)

/-- The invariant before position `n`: before the first point the scratch holds anything; from
    then on the support scratch holds x · W. The accumulators and the generator are never named. -/
def PhiAt (c : Dev nD) (n : ℕ) : sProp 𝕄 :=
  if n = 0 then
    iprop(iprop((∃ d, owns (c : Thread nD τ) sc0 fullShare d) ∗ (∃ d, owns (c : Thread nD τ) sc1 fullShare d) ∗ (∃ d, owns (c : Thread nD τ) sc2 fullShare d)) ∗ (∃ r, prngReg c r))
  else
    iprop(iprop(owns (c : Thread nD τ) sc0 fullShare (supAt m c) ∗ (∃ d, owns (c : Thread nD τ) sc1 fullShare d) ∗ (∃ d, owns (c : Thread nD τ) sc2 fullShare d)) ∗ (∃ r, prngReg c r))

/-! ## The proof data -/

/-- Exact data for the seven inputs (each staging buffer at its block at every point); the output
    window's entry is a placeholder that the relation below replaces. -/
def dat0 (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
  Φ t := PhiAt m c t.val
  q _ := fullShare
  owed _ := 0

theorem A_eq (c : Dev nD) (w : Fin cfg0.W) : (dat0 m c).A w = V m c (Pipeline.arrRef spec0 w) := by
  dsimp only [dat0]

theorem after_0 (c : Dev nD) (t : Fin cfg0.N) : (dat0 m c).after 0 t = iblk m c 0 t := by dsimp only [dat0]
theorem after_1 (c : Dev nD) (t : Fin cfg0.N) : (dat0 m c).after 1 t = iblk m c 1 t := by dsimp only [dat0]
theorem after_2 (c : Dev nD) (t : Fin cfg0.N) : (dat0 m c).after 2 t = iblk m c 2 t := by dsimp only [dat0]
theorem after_3 (c : Dev nD) (t : Fin cfg0.N) : (dat0 m c).after 3 t = iblk m c 3 t := by dsimp only [dat0]
theorem after_4 (c : Dev nD) (t : Fin cfg0.N) : (dat0 m c).after 4 t = iblk m c 4 t := by dsimp only [dat0]
theorem after_5 (c : Dev nD) (t : Fin cfg0.N) : (dat0 m c).after 5 t = iblk m c 5 t := by dsimp only [dat0]
theorem after_6 (c : Dev nD) (t : Fin cfg0.N) : (dat0 m c).after 6 t = iblk m c 6 t := by dsimp only [dat0]

theorem before_0 (c : Dev nD) (t : Fin cfg0.N) (d) : (dat0 m c).before 0 t d = iblk m c 0 t :=
  before0_0_of m (dat0 m c) (A_eq m c 0) (after_0 m c) t d
theorem before_1 (c : Dev nD) (t : Fin cfg0.N) (d) : (dat0 m c).before 1 t d = iblk m c 1 t :=
  before0_1_of m (dat0 m c) (A_eq m c 1) (after_1 m c) t d
theorem before_2 (c : Dev nD) (t : Fin cfg0.N) (d) : (dat0 m c).before 2 t d = iblk m c 2 t :=
  before0_2_of m (dat0 m c) (A_eq m c 2) (after_2 m c) t d
theorem before_3 (c : Dev nD) (t : Fin cfg0.N) (d) : (dat0 m c).before 3 t d = iblk m c 3 t :=
  before0_3_of m (dat0 m c) (A_eq m c 3) (after_3 m c) t d
theorem before_4 (c : Dev nD) (t : Fin cfg0.N) (d) : (dat0 m c).before 4 t d = iblk m c 4 t :=
  before0_4_of m (dat0 m c) (A_eq m c 4) (after_4 m c) t d
theorem before_5 (c : Dev nD) (t : Fin cfg0.N) (d) : (dat0 m c).before 5 t d = iblk m c 5 t :=
  before0_5_of m (dat0 m c) (A_eq m c 5) (after_5 m c) t d
theorem before_6 (c : Dev nD) (t : Fin cfg0.N) (d) : (dat0 m c).before 6 t d = iblk m c 6 t :=
  before0_6_of m (dat0 m c) (A_eq m c 6) (after_6 m c) t d

/-- The output window's relation: what the body leaves is `stepAt` of what it was handed. -/
def ovr (c : Dev nD) : (w : Fin cfg0.W) → Option (Fin cfg0.N → (Y X : (cfg0.win w).block.Idx → Elt F (cfg0.win w).elt) → Prop)
  | ⟨7, _⟩ => some (fun t Y X => X = stepAt m c t Y)
  | _ => none

/-- The relational data: the inputs exact, the output by its relation. -/
def rd (c : Dev nD) : Pipeline.RDat τ (Elt F) Unit ℕ (UR sig nD τ) ℕ cfg0 c := (dat0 m c).toR.override (ovr m c)

theorem rd_after7 (c : Dev nD) : (rd m c).after 7 = fun t Y X => X = stepAt m c t Y :=
  (dat0 m c).toR.override_after_of_eq_some (ovr := ovr m c) (w := 7) rfl

theorem rd_A (c : Dev nD) (w : Fin cfg0.W) : (rd m c).A w = V m c (Pipeline.arrRef spec0 w) := by
  show (dat0 m c).A w = _; exact A_eq m c w

/-! ## The body at a generic point -/

/-- What the body is handed at point `t`: the invariant, the seven inputs at their blocks, the
    output at contents `y`; -/
def bodyPre (c : Dev nD) (t : Fin cfg0.N) (y : Vec F S10000x128 .f32) : sProp 𝕄 :=
  iprop(PhiAt m c t.val ∗ (dat0 m c).owesAt () t.castSucc
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (iblk m c 3 t)
    ∗ owns (c : Thread nD τ) (ms4 t) fullShare (iblk m c 4 t)
    ∗ owns (c : Thread nD τ) (ms5 t) fullShare (iblk m c 5 t)
    ∗ owns (c : Thread nD τ) (ms6 t) fullShare (iblk m c 6 t)
    ∗ owns (c : Thread nD τ) (ms7 t) fullShare y)

/-- and what it hands back: the output at `stepAt` of what it was handed. -/
def bodyPost (c : Dev nD) (t : Fin cfg0.N) (y : Vec F S10000x128 .f32) : sProp 𝕄 :=
  iprop(PhiAt m c (t.val + 1) ∗ (dat0 m c).owesAt () t.castSucc
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (iblk m c 3 t)
    ∗ owns (c : Thread nD τ) (ms4 t) fullShare (iblk m c 4 t)
    ∗ owns (c : Thread nD τ) (ms5 t) fullShare (iblk m c 5 t)
    ∗ owns (c : Thread nD τ) (ms6 t) fullShare (iblk m c 6 t)
    ∗ owns (c : Thread nD τ) (ms7 t) fullShare (stepAt m c t y))

set_option maxHeartbeats 3200000 in
/-- The body at any point: the point's kind is decided by its number; each kind's run applies; the
    stores it found read back as the step functions; the first point turns the unnamed support
    scratch into x · W, which every later point finds and leaves. -/
theorem sound_body (c : Dev nD) (t : Fin cfg0.N) (y : Vec F S10000x128 .f32) :
    bodyPre m c t y ⊢ wp frame (wpE (defs₀ (F := F)) Variants.none c none) Set.univ (bodyAt0 t) (fun _ => bodyPost m c t y) := by
  unfold bodyPre bodyPost bodyAt0
  have hN : t.val < 25 := lt_of_lt_of_eq t.isLt (show cfg0.N = 25 from N_0)
  by_cases h0 : t.val = 0
  · have ht : t = pt0 := Fin.ext h0
    subst ht
    have hc0 : condFirst (grid0.coords pt0) := (condFirst_iff pt0).mpr rfl
    have hc1 : ¬condLast (grid0.coords pt0) := fun h => by have := (condLast_iff pt0).mp h; omega
    unfold PhiAt stepAt
    rewrite [if_pos h0, if_neg (by omega : ¬(pt0 : Fin cfg0.N).val + 1 = 0), if_pos h0]
    iintro ⟨⟨⟨⟨%ds0, HS0⟩, HS1, HS2⟩, Hg⟩, Ho, H0, H1, H2, H3, H4, H5, H6, H7⟩
    iapply ((runFirst c (grid0.coords pt0) (ms0 pt0) (hs0 pt0) (ms1 pt0) (hs1 pt0) (ms2 pt0) (hs2 pt0) (ms3 pt0) (hs3 pt0) (ms4 pt0) (hs4 pt0) (ms5 pt0) (hs5 pt0) (ms6 pt0) (hs6 pt0) (ms7 pt0) (hs7 pt0) sc0 (Memref.isWhole_whole _) sc1 (Memref.isWhole_whole _) sc2 (Memref.isWhole_whole _) hc0 hc1 (iblk m c 0 pt0) (iblk m c 1 pt0) (iblk m c 2 pt0) (iblk m c 3 pt0) (iblk m c 4 pt0) (iblk m c 5 pt0) (iblk m c 6 pt0) y).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexists ds0; iexact HS0
    isplitl [HS1]; · iexact HS1
    isplitl [HS2]; · iexact HS2
    iintro ⟨H0, H1, H2, H3, H4, H5, H6, H7, ⟨%f9, HS0⟩, HS1, HS2⟩
    isplitl [HS0 HS1 HS2 Hg]
    · isplitl [HS0 HS1 HS2]
      · isplitl [HS0]
        · unfold owns; iexists _; isplitr
          swap; · iexact HS0
          ipureintro; exact runFirst_read9 c _ _ _ _ _ _ _ _ _ _ _ _ _ _ _ _ _ _ _ _ _ _ _ hc0 hc1 _ _ _ _ _ _ _ y f9
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact runFirst_read8 c _ _ _ _ _ _ _ _ _ _ _ _ _ _ _ _ _ _ _ _ _ _ _ hc0 hc1 _ _ _ _ _ _ _ y
  · have hc0 : ¬condFirst (grid0.coords t) := fun h => h0 ((condFirst_iff t).mp h)
    unfold PhiAt stepAt
    rewrite [if_neg h0, if_neg (by omega : ¬t.val + 1 = 0), if_neg h0]
    by_cases h1 : t.val = 24
    · have hc1 : condLast (grid0.coords t) := (condLast_iff t).mpr h1
      rewrite [if_pos h1]
      iintro ⟨⟨⟨HS0, HS1, HS2⟩, Hg⟩, Ho, H0, H1, H2, H3, H4, H5, H6, H7⟩
      iapply ((runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) hc0 hc1 (iblk m c 0 t) (iblk m c 1 t) (iblk m c 2 t) (iblk m c 3 t) (iblk m c 4 t) (iblk m c 5 t) (iblk m c 6 t) y (supAt m c)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      iintro ⟨H0, H1, H2, H3, H4, H5, H6, H7, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact runLast_read c _ _ _ _ _ _ _ _ _ _ _ _ _ _ _ _ _ _ _ _ _ _ _ hc0 hc1 _ _ _ _ _ _ _ y _
    · have hc1 : ¬condLast (grid0.coords t) := fun h => h1 ((condLast_iff t).mp h)
      rewrite [if_neg h1]
      iintro ⟨⟨⟨HS0, HS1, HS2⟩, Hg⟩, Ho, H0, H1, H2, H3, H4, H5, H6, H7⟩
      iapply ((runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) sc0 (Memref.isWhole_whole _) sc1 (Memref.isWhole_whole _) sc2 (Memref.isWhole_whole _) hc0 hc1 (iblk m c 0 t) (iblk m c 1 t) (iblk m c 2 t) (iblk m c 3 t) (iblk m c 4 t) (iblk m c 5 t) (iblk m c 6 t) y (supAt m c)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      iintro ⟨H0, H1, H2, H3, H4, H5, H6, H7, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact runMid_read c _ _ _ _ _ _ _ _ _ _ _ _ _ _ _ _ _ _ _ _ _ _ _ hc0 hc1 _ _ _ _ _ _ _ y _

end Cert.KernelIdeal.Body

end
-- ==== Proof.KIFrame.lean ====
/-
  The body obligation of the relational data at every grid point, the run of the whole program
  from it, and the frame: the program terminates without a fault and leaves its arguments unchanged.
-/
import proofs.«178506_g1967095022032_cont_sun_m_789_21_alg».proof.Proof.KIData

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the body finds in the input windows -/

theorem finds_in_0 (c : Dev nD) (t : Fin cfg0.N) (Yw : (cfg0.win 0).block.Idx → Elt F (cfg0.win 0).elt)
    (h : (rd m c).Finds 0 t Yw) : Yw = iblk m c 0 t := by
  obtain ⟨d, hd⟩ := (dat0 m c).toR_finds 0 t Yw (((dat0 m c).toR.override_finds (ovr := ovr m c) (w := 0) rfl t Yw).mp h)
  rw [hd, before_0]

theorem leaves_in_0 (c : Dev nD) (t : Fin cfg0.N) (Yw : (cfg0.win 0).block.Idx → Elt F (cfg0.win 0).elt) :
    (rd m c).after 0 t Yw (iblk m c 0 t) := by
  have e : (rd m c).after 0 = (dat0 m c).toR.after 0 := (dat0 m c).toR.override_after_of_eq_none (ovr := ovr m c) (w := 0) rfl
  rw [e]
  show (dat0 m c).Leaves 0 t (iblk m c 0 t)
  unfold Dat.Leaves
  exact (after_0 m c t).symm

theorem finds_in_1 (c : Dev nD) (t : Fin cfg0.N) (Yw : (cfg0.win 1).block.Idx → Elt F (cfg0.win 1).elt)
    (h : (rd m c).Finds 1 t Yw) : Yw = iblk m c 1 t := by
  obtain ⟨d, hd⟩ := (dat0 m c).toR_finds 1 t Yw (((dat0 m c).toR.override_finds (ovr := ovr m c) (w := 1) rfl t Yw).mp h)
  rw [hd, before_1]

theorem leaves_in_1 (c : Dev nD) (t : Fin cfg0.N) (Yw : (cfg0.win 1).block.Idx → Elt F (cfg0.win 1).elt) :
    (rd m c).after 1 t Yw (iblk m c 1 t) := by
  have e : (rd m c).after 1 = (dat0 m c).toR.after 1 := (dat0 m c).toR.override_after_of_eq_none (ovr := ovr m c) (w := 1) rfl
  rw [e]
  show (dat0 m c).Leaves 1 t (iblk m c 1 t)
  unfold Dat.Leaves
  exact (after_1 m c t).symm

theorem finds_in_2 (c : Dev nD) (t : Fin cfg0.N) (Yw : (cfg0.win 2).block.Idx → Elt F (cfg0.win 2).elt)
    (h : (rd m c).Finds 2 t Yw) : Yw = iblk m c 2 t := by
  obtain ⟨d, hd⟩ := (dat0 m c).toR_finds 2 t Yw (((dat0 m c).toR.override_finds (ovr := ovr m c) (w := 2) rfl t Yw).mp h)
  rw [hd, before_2]

theorem leaves_in_2 (c : Dev nD) (t : Fin cfg0.N) (Yw : (cfg0.win 2).block.Idx → Elt F (cfg0.win 2).elt) :
    (rd m c).after 2 t Yw (iblk m c 2 t) := by
  have e : (rd m c).after 2 = (dat0 m c).toR.after 2 := (dat0 m c).toR.override_after_of_eq_none (ovr := ovr m c) (w := 2) rfl
  rw [e]
  show (dat0 m c).Leaves 2 t (iblk m c 2 t)
  unfold Dat.Leaves
  exact (after_2 m c t).symm

theorem finds_in_3 (c : Dev nD) (t : Fin cfg0.N) (Yw : (cfg0.win 3).block.Idx → Elt F (cfg0.win 3).elt)
    (h : (rd m c).Finds 3 t Yw) : Yw = iblk m c 3 t := by
  obtain ⟨d, hd⟩ := (dat0 m c).toR_finds 3 t Yw (((dat0 m c).toR.override_finds (ovr := ovr m c) (w := 3) rfl t Yw).mp h)
  rw [hd, before_3]

theorem leaves_in_3 (c : Dev nD) (t : Fin cfg0.N) (Yw : (cfg0.win 3).block.Idx → Elt F (cfg0.win 3).elt) :
    (rd m c).after 3 t Yw (iblk m c 3 t) := by
  have e : (rd m c).after 3 = (dat0 m c).toR.after 3 := (dat0 m c).toR.override_after_of_eq_none (ovr := ovr m c) (w := 3) rfl
  rw [e]
  show (dat0 m c).Leaves 3 t (iblk m c 3 t)
  unfold Dat.Leaves
  exact (after_3 m c t).symm

theorem finds_in_4 (c : Dev nD) (t : Fin cfg0.N) (Yw : (cfg0.win 4).block.Idx → Elt F (cfg0.win 4).elt)
    (h : (rd m c).Finds 4 t Yw) : Yw = iblk m c 4 t := by
  obtain ⟨d, hd⟩ := (dat0 m c).toR_finds 4 t Yw (((dat0 m c).toR.override_finds (ovr := ovr m c) (w := 4) rfl t Yw).mp h)
  rw [hd, before_4]

theorem leaves_in_4 (c : Dev nD) (t : Fin cfg0.N) (Yw : (cfg0.win 4).block.Idx → Elt F (cfg0.win 4).elt) :
    (rd m c).after 4 t Yw (iblk m c 4 t) := by
  have e : (rd m c).after 4 = (dat0 m c).toR.after 4 := (dat0 m c).toR.override_after_of_eq_none (ovr := ovr m c) (w := 4) rfl
  rw [e]
  show (dat0 m c).Leaves 4 t (iblk m c 4 t)
  unfold Dat.Leaves
  exact (after_4 m c t).symm

theorem finds_in_5 (c : Dev nD) (t : Fin cfg0.N) (Yw : (cfg0.win 5).block.Idx → Elt F (cfg0.win 5).elt)
    (h : (rd m c).Finds 5 t Yw) : Yw = iblk m c 5 t := by
  obtain ⟨d, hd⟩ := (dat0 m c).toR_finds 5 t Yw (((dat0 m c).toR.override_finds (ovr := ovr m c) (w := 5) rfl t Yw).mp h)
  rw [hd, before_5]

theorem leaves_in_5 (c : Dev nD) (t : Fin cfg0.N) (Yw : (cfg0.win 5).block.Idx → Elt F (cfg0.win 5).elt) :
    (rd m c).after 5 t Yw (iblk m c 5 t) := by
  have e : (rd m c).after 5 = (dat0 m c).toR.after 5 := (dat0 m c).toR.override_after_of_eq_none (ovr := ovr m c) (w := 5) rfl
  rw [e]
  show (dat0 m c).Leaves 5 t (iblk m c 5 t)
  unfold Dat.Leaves
  exact (after_5 m c t).symm

theorem finds_in_6 (c : Dev nD) (t : Fin cfg0.N) (Yw : (cfg0.win 6).block.Idx → Elt F (cfg0.win 6).elt)
    (h : (rd m c).Finds 6 t Yw) : Yw = iblk m c 6 t := by
  obtain ⟨d, hd⟩ := (dat0 m c).toR_finds 6 t Yw (((dat0 m c).toR.override_finds (ovr := ovr m c) (w := 6) rfl t Yw).mp h)
  rw [hd, before_6]

theorem leaves_in_6 (c : Dev nD) (t : Fin cfg0.N) (Yw : (cfg0.win 6).block.Idx → Elt F (cfg0.win 6).elt) :
    (rd m c).after 6 t Yw (iblk m c 6 t) := by
  have e : (rd m c).after 6 = (dat0 m c).toR.after 6 := (dat0 m c).toR.override_after_of_eq_none (ovr := ovr m c) (w := 6) rfl
  rw [e]
  show (dat0 m c).Leaves 6 t (iblk m c 6 t)
  unfold Dat.Leaves
  exact (after_6 m c t).symm

/-! ## The body obligation -/

set_option maxHeartbeats 1600000 in
/-- At every point, whatever the output's staging buffer holds: the inputs are found at their blocks
    and left there, the output is left at `stepAt` of what was found. -/
theorem body_obligation (c : Dev nD) : (rd m c).BodyObligation (defs₀ (F := F)) Variants.none () Set.univ := fun t Y hY => by
  have e0 := finds_in_0 m c t (Y 0) (hY 0)
  have e1 := finds_in_1 m c t (Y 1) (hY 1)
  have e2 := finds_in_2 m c t (Y 2) (hY 2)
  have e3 := finds_in_3 m c t (Y 3) (hY 3)
  have e4 := finds_in_4 m c t (Y 4) (hY 4)
  have e5 := finds_in_5 m c t (Y 5) (hY 5)
  have e6 := finds_in_6 m c t (Y 6) (hY 6)
  rw [bigSep_W0, bigSep_W0]
  refine (?hpre : _ ⊢ bodyPre m c t (Y 7)).trans ((sound_body m c t (Y 7)).trans (wp_mono _ _ _ ?hpost))
  case hpre =>
    unfold bodyPre
    rw [e0, e1, e2, e3, e4, e5, e6]
    exact .rfl
  case hpost =>
    intro _
    unfold bodyPost
    rewrite [show (rd m c).Φ t.succ = PhiAt m c (t.val + 1) from rfl,
      show (rd m c).owesAt () t.succ = (dat0 m c).owesAt () t.castSucc from rfl]
    iintro ⟨HP, Ho, H0, H1, H2, H3, H4, H5, H6, H7⟩
    isplitl [HP]; · iexact HP
    isplitl [Ho]; · iexact Ho
    isplitl [H0]
    · iexists (iblk m c 0 t); isplitr
      · ipureintro; exact leaves_in_0 m c t _
      · iexact H0
    isplitl [H1]
    · iexists (iblk m c 1 t); isplitr
      · ipureintro; exact leaves_in_1 m c t _
      · iexact H1
    isplitl [H2]
    · iexists (iblk m c 2 t); isplitr
      · ipureintro; exact leaves_in_2 m c t _
      · iexact H2
    isplitl [H3]
    · iexists (iblk m c 3 t); isplitr
      · ipureintro; exact leaves_in_3 m c t _
      · iexact H3
    isplitl [H4]
    · iexists (iblk m c 4 t); isplitr
      · ipureintro; exact leaves_in_4 m c t _
      · iexact H4
    isplitl [H5]
    · iexists (iblk m c 5 t); isplitr
      · ipureintro; exact leaves_in_5 m c t _
      · iexact H5
    isplitl [H6]
    · iexists (iblk m c 6 t); isplitr
      · ipureintro; exact leaves_in_6 m c t _
      · iexact H6
    iexists (stepAt m c t (Y 7)); isplitr
    · ipureintro; rw [rd_after7]
    · iexact H7

/-! ## Entry and exit of the invariant -/

theorem hin (c : Dev nD) : Pipeline.ΦA spec0 c ⊢ (rd m c).Φ 0 := by
  rw [show (rd m c).Φ 0 = PhiAt m c 0 from rfl, PhiA_eq]
  unfold PhiAt
  rw [if_pos rfl]

theorem hout (c : Dev nD) : (rd m c).Φ (Fin.last cfg0.N) ⊢ Pipeline.ΦA spec0 c := by
  rw [show (rd m c).Φ (Fin.last cfg0.N) = PhiAt m c (Fin.last cfg0.N).val from rfl, PhiA_eq]
  unfold PhiAt
  rw [if_neg (by decide : ¬(Fin.last cfg0.N).val = 0)]
  iintro ⟨⟨HS0, HS1, HS2⟩, Hg⟩
  isplitl [HS0 HS1 HS2]
  · isplitl [HS0]; · iexists _; iexact HS0
    isplitl [HS1]; · iexact HS1
    iexact HS2
  iexact Hg

/-! ## The run and the frame -/

set_option backward.isDefEq.respectTransparency.types false in
/-- Every weakly fair execution of the program terminates; each windowed array ends at contents the
    relational data allow, every other unscoped buffer as the region found it. -/
theorem run_main : θ_run defs (onTc (τ := τ) (main (F := F))) (s₀ m ρ) (Pipeline.RDat.FramePost (cfgs 0) (fun c => rd m c) (V m)) :=
  Pipeline.RDat.θ_run_frame_track cfgs (0 : Fin 1) launch0 defs₀ Variants.none (fun c => rd m c) m ρ main
    (hbody := fun c => body_obligation m c) (hshare := fun c => (rd m c).share_full fun _ => rfl)
    (howed := fun _ _ => rfl) (V := V m) (hmain := hmain m Variants.none) (hA := rd_A m) (hin := hin m) (hout := hout m)

/-- The program runs and leaves its seven argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(Eq.mp (congrFun ((rd m c).ArrAt_in 0 rfl _) _) ((h c).1 0)).trans ((rd_A m c 0).trans (V_main_arg0 m c)),
      (Eq.mp (congrFun ((rd m c).ArrAt_in 1 rfl _) _) ((h c).1 1)).trans ((rd_A m c 1).trans (V_main_arg1 m c)),
      (Eq.mp (congrFun ((rd m c).ArrAt_in 2 rfl _) _) ((h c).1 2)).trans ((rd_A m c 2).trans (V_main_arg2 m c)),
      (Eq.mp (congrFun ((rd m c).ArrAt_in 3 rfl _) _) ((h c).1 3)).trans ((rd_A m c 3).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) (run_main m ρ)

end Cert.KernelIdeal.Body

end
-- ==== Proof.Spec.lean ====
/-
  The batch-normalised graph-convolution layer as plain mathematics on the extended reals.

  For node features x (10000 × 128), a dense adjacency adj (10000 × 10000), weights W and W_self
  (128 × 128), a bias b and the normalisation's gain γ and offset β (128 each):

    support  = x · W
    pre      = adj · support + x · W_self + b                      (one row per node)
    out      = the columns of pre normalised over the 10000 nodes to mean 0 and variance 1
               (biased variance, ε added under the root), scaled by γ and shifted by β.

  The normalisation is spelt twice, as the two programs compute it:
   * the first form multiplies the column sums by the reciprocal 1/10000, takes the variance as
     E[o²] − E[o]², and applies o · (γ · rsqrt(var + ε)) + (β − mean · γ · rsqrt(var + ε));
   * the second divides the sums by 10000, takes the variance as the mean of the squared
     deviations, and applies ((o − mean) / sqrt(var + ε)) · γ + β.
  On finite entries the two agree: the variance identity E[(o − m)²] = E[o²] − m² and, for a
  positive radicand, rsqrt y = 1 / sqrt y.
-/
import Idealize.ShloMosaic.PureOps.Ideal
import Mathlib

noncomputable section

namespace GcnBn

open Idealize.ShloMosaic

/-- ε of the normalisation: the single-precision word both programs carry for 1e-5. -/
def eps : EReal := Ideal.ofBits .f32 0x3727C5AC#32

/-- The node count as the reference's divisor: the single-precision word of 10000.0. -/
def tenK : EReal := Ideal.ofBits .f32 0x461C4000#32

/-- The reciprocal of the node count, as the exact rational. -/
def invN : EReal := ((1 / 10000 : ℝ) : EReal)

section Pre

variable (x : Fin 10000 → Fin 128 → EReal) (adj : Fin 10000 → Fin 10000 → EReal)
  (W Ws : Fin 128 → Fin 128 → EReal) (b : Fin 128 → EReal)

/-- support = x · W. -/
def sup (k : Fin 10000) (n : Fin 128) : EReal := ∑ j : Fin 128, x k j * W j n

/-- The layer before normalisation: (adj · support + x · W_self) + b. -/
def pre (r : Fin 10000) (n : Fin 128) : EReal :=
  ((∑ k : Fin 10000, adj r k * sup x W k n) + ∑ j : Fin 128, x r j * Ws j n) + b n

end Pre

section Norm

variable (o : Fin 10000 → Fin 128 → EReal) (γ β : Fin 128 → EReal)

/-! ### The first spelling: reciprocal, E[o²] − E[o]², rsqrt -/

def kMean (n : Fin 128) : EReal := (∑ r : Fin 10000, o r n) * invN

def kVar (n : Fin 128) : EReal := (∑ r : Fin 10000, o r n * o r n) * invN - kMean o n * kMean o n

def kScale (n : Fin 128) : EReal := γ n * Ideal.rsqrt (kVar o n + eps)

def kShift (n : Fin 128) : EReal := β n - kMean o n * kScale o γ n

def kOut (r : Fin 10000) (n : Fin 128) : EReal := o r n * kScale o γ n + kShift o γ β n

/-! ### The second spelling: quotient, mean squared deviation, sqrt -/

def rMean (n : Fin 128) : EReal := Ideal.div (∑ r : Fin 10000, o r n) tenK

def rVar (n : Fin 128) : EReal :=
  Ideal.div (∑ r : Fin 10000, (o r n - rMean o n) * (o r n - rMean o n)) (tenK - 0)

def rOut (r : Fin 10000) (n : Fin 128) : EReal :=
  Ideal.div (o r n - rMean o n) (Ideal.sqrt (rVar o n + eps)) * γ n + β n

end Norm

end GcnBn

end
-- ==== Proof.KIBlocks.lean ====
/-
  The kernel's input blocks read at an index, at the exact-real instance: each is the argument
  array at the corresponding place.
-/
import proofs.«178506_g1967095022032_cont_sun_m_789_21_alg».proof.Proof.KIFrame
import proofs.«178506_g1967095022032_cont_sun_m_789_21_alg».proof.Proof.Spec
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen Idealize.ShloMosaic.ValueIdx

variable (m : (ℓ : Loc nD τ sig) → Buf (Elt Ideal) ℓ) (ρ : Dev nD → PrngReg)

/-! ## The input blocks, read at an index

Every input window but the adjacency's has the whole array as its one block; the adjacency's block at
point `t` is rows `400 t` to `400 t + 399`. The bias, gain and offset reach their windows through a
reshape of the 128-vector to one row. -/

/-- The windows' block indices, decided over the grid. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- The argument arrays as plain functions of an index. -/
abbrev aX (c : Dev nD) : S10000x128.Idx → EReal := m ((c.tc : Thread nD τ).loc main_arg0)
abbrev aAdj (c : Dev nD) : S10000x10000.Idx → EReal := m ((c.tc : Thread nD τ).loc main_arg1)
abbrev aW (c : Dev nD) : S128x128.Idx → EReal := m ((c.tc : Thread nD τ).loc main_arg2)
abbrev aWs (c : Dev nD) : S128x128.Idx → EReal := m ((c.tc : Thread nD τ).loc main_arg3)
abbrev aB (c : Dev nD) : S128.Idx → EReal := m ((c.tc : Thread nD τ).loc main_arg4)
abbrev aG (c : Dev nD) : S128.Idx → EReal := m ((c.tc : Thread nD τ).loc main_arg5)
abbrev aBeta (c : Dev nD) : S128.Idx → EReal := m ((c.tc : Thread nD τ).loc main_arg6)

theorem iblk0_apply (c : Dev nD) (t : Fin cfg0.N) (k : Fin 10000) (j : Fin 128) :
    iblk m c 0 t (ix2 k j) = aX m c (ix2 k j) := by
  obtain ⟨e0, e1, -⟩ := idx_facts t
  unfold aX
  rw [← V_main_arg0 m c]
  show V m c main_arg0 (((cfg0.win 0).blk t).view.emb (ix2 k j)) = V m c main_arg0 (ix2 k j)
  congr 1
  funext a; apply Fin.ext
  match a with
  | ⟨0, _⟩ => show win0_0.index t (0 : Fin 2) * 10000 + 1 * k.val = k.val; omega
  | ⟨1, _⟩ => show win0_0.index t (1 : Fin 2) * 128 + 1 * j.val = j.val; omega

theorem iblk1_apply (c : Dev nD) (t : Fin cfg0.N) (p : Fin 400) (k r : Fin 10000) (hr : r.val = 400 * t.val + p.val) :
    iblk m c 1 t (ix2 p k) = aAdj m c (ix2 r k) := by
  obtain ⟨-, -, e0, e1, -⟩ := idx_facts t
  unfold aAdj
  rw [← V_main_arg1 m c]
  show V m c main_arg1 (((cfg0.win 1).blk t).view.emb (ix2 p k)) = V m c main_arg1 (ix2 r k)
  congr 1
  funext a; apply Fin.ext
  match a with
  | ⟨0, _⟩ => show win0_1.index t (0 : Fin 2) * 400 + 1 * p.val = r.val; omega
  | ⟨1, _⟩ => show win0_1.index t (1 : Fin 2) * 10000 + 1 * k.val = k.val; omega

theorem iblk2_apply (c : Dev nD) (t : Fin cfg0.N) (j n : Fin 128) :
    iblk m c 2 t (ix2 j n) = aW m c (ix2 j n) := by
  obtain ⟨-, -, -, -, e0, e1, -⟩ := idx_facts t
  unfold aW
  rw [← V_main_arg2 m c]
  show V m c main_arg2 (((cfg0.win 2).blk t).view.emb (ix2 j n)) = V m c main_arg2 (ix2 j n)
  congr 1
  funext a; apply Fin.ext
  match a with
  | ⟨0, _⟩ => show win0_2.index t (0 : Fin 2) * 128 + 1 * j.val = j.val; omega
  | ⟨1, _⟩ => show win0_2.index t (1 : Fin 2) * 128 + 1 * n.val = n.val; omega

theorem iblk3_apply (c : Dev nD) (t : Fin cfg0.N) (j n : Fin 128) :
    iblk m c 3 t (ix2 j n) = aWs m c (ix2 j n) := by
  obtain ⟨-, -, -, -, -, -, e0, e1, -⟩ := idx_facts t
  unfold aWs
  rw [← V_main_arg3 m c]
  show V m c main_arg3 (((cfg0.win 3).blk t).view.emb (ix2 j n)) = V m c main_arg3 (ix2 j n)
  congr 1
  funext a; apply Fin.ext
  match a with
  | ⟨0, _⟩ => show win0_3.index t (0 : Fin 2) * 128 + 1 * j.val = j.val; omega
  | ⟨1, _⟩ => show win0_3.index t (1 : Fin 2) * 128 + 1 * n.val = n.val; omega

/-- The three reshaped vectors as the region finds them: the 128-vector cast to one row. -/
theorem V_b (c : Dev nD) : (V m c main_call0_v0 : S1x128.Idx → EReal) = shapeCast S1x128 (aB m c) shapeCasts_S128_S1x128 := by
  dsimp only [V, hostOps0]; after_results; rfl
theorem V_g (c : Dev nD) : (V m c main_call0_v1 : S1x128.Idx → EReal) = shapeCast S1x128 (aG m c) shapeCasts_S128_S1x128 := by
  dsimp only [V, hostOps0]; after_results; rfl
theorem V_beta (c : Dev nD) : (V m c main_call0_v2 : S1x128.Idx → EReal) = shapeCast S1x128 (aBeta m c) shapeCasts_S128_S1x128 := by
  dsimp only [V, hostOps0]; after_results; rfl

theorem iblk4_apply (c : Dev nD) (t : Fin cfg0.N) (n : Fin 128) :
    iblk m c 4 t (ix2 (0 : Fin 1) n) = aB m c (ix1 n) := by
  obtain ⟨-, -, -, -, -, -, -, -, e0, e1, -⟩ := idx_facts t
  rw [← shapeCast_a_1a_apply (aB m c) shapeCasts_S128_S1x128 (0 : Fin 1) n, ← V_b m c]
  show V m c main_call0_v0 (((cfg0.win 4).blk t).view.emb (ix2 (0 : Fin 1) n)) = V m c main_call0_v0 (ix2 (0 : Fin 1) n)
  congr 1
  funext a; apply Fin.ext
  match a with
  | ⟨0, _⟩ => show win0_4.index t (0 : Fin 2) * 1 + 1 * 0 = 0; omega
  | ⟨1, _⟩ => show win0_4.index t (1 : Fin 2) * 128 + 1 * n.val = n.val; omega

theorem iblk5_apply (c : Dev nD) (t : Fin cfg0.N) (n : Fin 128) :
    iblk m c 5 t (ix2 (0 : Fin 1) n) = aG m c (ix1 n) := by
  obtain ⟨-, -, -, -, -, -, -, -, -, -, e0, e1, -⟩ := idx_facts t
  rw [← shapeCast_a_1a_apply (aG m c) shapeCasts_S128_S1x128 (0 : Fin 1) n, ← V_g m c]
  show V m c main_call0_v1 (((cfg0.win 5).blk t).view.emb (ix2 (0 : Fin 1) n)) = V m c main_call0_v1 (ix2 (0 : Fin 1) n)
  congr 1
  funext a; apply Fin.ext
  match a with
  | ⟨0, _⟩ => show win0_5.index t (0 : Fin 2) * 1 + 1 * 0 = 0; omega
  | ⟨1, _⟩ => show win0_5.index t (1 : Fin 2) * 128 + 1 * n.val = n.val; omega

theorem iblk6_apply (c : Dev nD) (t : Fin cfg0.N) (n : Fin 128) :
    iblk m c 6 t (ix2 (0 : Fin 1) n) = aBeta m c (ix1 n) := by
  obtain ⟨-, -, -, -, -, -, -, -, -, -, -, -, e0, e1, -⟩ := idx_facts t
  rw [← shapeCast_a_1a_apply (aBeta m c) shapeCasts_S128_S1x128 (0 : Fin 1) n, ← V_beta m c]
  show V m c main_call0_v2 (((cfg0.win 6).blk t).view.emb (ix2 (0 : Fin 1) n)) = V m c main_call0_v2 (ix2 (0 : Fin 1) n)
  congr 1
  funext a; apply Fin.ext
  match a with
  | ⟨0, _⟩ => show win0_6.index t (0 : Fin 2) * 1 + 1 * 0 = 0; omega
  | ⟨1, _⟩ => show win0_6.index t (1 : Fin 2) * 128 + 1 * n.val = n.val; omega

end Cert.KernelIdeal.Body

end
-- ==== Proof.KIPay.lean ====
/-
  The kernel's three arithmetic payloads read at an index, on the extended reals.

  Each payload is a short chain of matrix products into a zero accumulator, pointwise sums,
  products and differences, casts between [128] and [1, 128], broadcasts of a [1, 128] row down
  the rows, column sums, a reciprocal root and the named reciprocal 1/10000. Read at (row, column)
  the layout operations disappear: a product into zero is the sum over the contracted coordinate,
  a column sum is the sum over the rows, a broadcast row is read at its column, and the pointwise
  operations are the extended reals' own.
-/
import proofs.«178506_g1967095022032_cont_sun_m_789_21_alg».proof.Proof.Gen.KernelIdeal.Skeleton
import proofs.«178506_g1967095022032_cont_sun_m_789_21_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.PayValue

open Idealize.ShloMosaic Idealize.ShloMosaic.ValueIdx Cert.KernelIdeal Cert.KernelIdeal.Gen

/-! ### The non-pointwise operations at an index, over variables -/

/-- An M×K by K×N product into the zero accumulator, at (a, b), is the sum over the contracted
    coordinate c of A(a, c) · B(c, b). -/
theorem matmul_zero_apply {M K N : Nat}
    (w : DotDims.WF ⟨2, ![M, K]⟩ ⟨2, ![K, N]⟩ ⟨2, ![M, N]⟩ [1] [0] [0] [1] [] [])
    (prec : Option ContractPrecision) (A : FVec Ideal ⟨2, ![M, K]⟩ .f32)
    (B : FVec Ideal ⟨2, ![K, N]⟩ .f32) (a : Fin M) (b : Fin N) :
    matmul (⟨[1], [0], [0], [1], [], [], w⟩ : DotDims ⟨2, ![M, K]⟩ ⟨2, ![K, N]⟩ ⟨2, ![M, N]⟩) prec A B
        (constant ⟨2, ![M, N]⟩ .f32 0x00000000#32) (ix2 a b)
      = ∑ c : Fin K, A (ix2 a c) * B (ix2 c b) := by
  show FloatOps.matmul _ prec A B _ (ix2 a b) = _
  rw [Ideal.matmul_constant_zero_apply,
    ← Equiv.sum_comp (contrEquiv1
      (⟨[1], [0], [0], [1], [], [], w⟩ : DotDims ⟨2, ![M, K]⟩ ⟨2, ![K, N]⟩ ⟨2, ![M, N]⟩) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx
      (ix2 a b) ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx
      (ix2 a b) ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The sum over the rows of an R×C array, at column n. -/
theorem colSum_apply {R C : Nat} (src : FVec Ideal ⟨2, ![R, C]⟩ .f32)
    (h : Shape.Reduces ⟨2, ![R, C]⟩ [0] ⟨1, ![C]⟩) (hφ : FKind.Formats .f32)
    (hacc : (0x00000000#32 : BitVec 32) = FKind.add.neutral .f32 hφ) (n : Fin C) :
    multiReduction .add [0] ⟨1, ![C]⟩ src 0x00000000#32 h hφ hacc (ix1 n)
      = ∑ r : Fin R, src (ix2 r n) := by
  refine (Ideal.multiReduction_add_single src 0x00000000#32 h hφ hacc (ix1 n)).trans ?_
  refine Finset.sum_congr rfl fun r _ => congrArg src ?_
  funext ax
  match ax with
  | ⟨0, _⟩ => rfl
  | ⟨1, _⟩ => rfl

/-- The named reciprocal of the node count is the rational 1/10000. -/
theorem inv_10000 :
    Named.named (F := Ideal) Cert.KernelIdeal.κ "inv_10000" (φ := .f32) 0x38D1B717#32 = GcnBn.invN :=
  IdealRules.named_const.ideal_named_scalar _ _ _ _ rfl

/-- The reciprocal root is taken entry by entry. -/
theorem rsqrt_apply {s : Shape} (v : FVec Ideal s .f32) (i : s.Idx) : rsqrt v i = Ideal.rsqrt (v i) := rfl

/-- The scalar word of ε is the ε of the normalisation. -/
theorem eps_eq : Scalar.ofBits (F := Ideal) .f32 0x3727C5AC#32 = GcnBn.eps := rfl

/-! ### The payloads -/

theorem pay1_apply (x0 : Vec Ideal S10000x128 .f32) (x2 : Vec Ideal S128x128 .f32)
    (k : Fin 10000) (n : Fin 128) :
    k0_pay1 (F := Ideal) x0 x2 (ix2 k n)
      = GcnBn.sup (fun k j => x0 (ix2 k j)) (fun j n => x2 (ix2 j n)) k n := by
  unfold k0_pay1 GcnBn.sup
  rw [shapeCast_self]
  exact matmul_zero_apply dot_S10000x128_S128x128_S10000x128_1_0_0_1_n_n_wf none x0 x2 k n

theorem pay4_apply (v4 : Vec Ideal S400x10000 .f32) (v5 : Vec Ideal S10000x128 .f32)
    (v8 : Vec Ideal S400x128 .f32) (v9 : Vec Ideal S128x128 .f32) (v12 : Vec Ideal S1x128 .f32)
    (p : Fin 400) (n : Fin 128) :
    k0_pay4 (F := Ideal) v4 v5 v8 v9 v12 (ix2 p n)
      = ((∑ k : Fin 10000, v4 (ix2 p k) * v5 (ix2 k n)) + ∑ j : Fin 128, v8 (ix2 p j) * v9 (ix2 j n))
          + v12 (ix2 (0 : Fin 1) n) := by
  unfold k0_pay4
  rw [addf_apply, addf_apply, shapeCast_self, broadcastTo_1b_ab_apply]
  refine congrArg₂ (· + ·) (congrArg₂ (· + ·) ?_ ?_) rfl
  · exact matmul_zero_apply dot_S400x10000_S10000x128_S400x128_1_0_0_1_n_n_wf none v4 v5 p n
  · exact matmul_zero_apply dot_S400x128_S128x128_S400x128_1_0_0_1_n_n_wf none v8 v9 p n

theorem pay5_apply (Y : Vec Ideal S10000x128 .f32) (g b : Vec Ideal S1x128 .f32)
    (r : Fin 10000) (n : Fin 128) :
    k0_pay5 (F := Ideal) Y g b Y (ix2 r n)
      = GcnBn.kOut (fun r n => Y (ix2 r n)) (fun n => g (ix2 (0 : Fin 1) n))
          (fun n => b (ix2 (0 : Fin 1) n)) r n := by
  unfold k0_pay5
  simp only [shapeCast_self]
  rw [addf_apply, mulf_apply, broadcastTo_1b_ab_apply, broadcastTo_1b_ab_apply]
  simp only [mulf_apply, subf_apply, addf_apply, rsqrt_apply, broadcast_apply, shapeCast_a_1a_apply,
    inv_10000, eps_eq]
  have hS := colSum_apply (R := 10000) (C := 128) Y reduces_S10000x128_S128 (.inl rfl) rfl n
  have hQ := colSum_apply (R := 10000) (C := 128) (mulf (Y : FVec Ideal S10000x128 .f32) Y)
    reduces_S10000x128_S128 (.inl rfl) rfl n
  rw [hS, hQ]
  rfl

end Cert.KernelIdeal.PayValue

end
-- ==== Proof.KISlab.lean ====
/-
  At the exact-real instance: the support scratch is x · W; the slab a point stores is its 400 rows
  of adj · (x · W) + x · W_self + b; and a point that only stores its slab changes exactly those
  rows of what it was handed.
-/
import proofs.«178506_g1967095022032_cont_sun_m_789_21_alg».proof.Proof.KIBlocks
import proofs.«178506_g1967095022032_cont_sun_m_789_21_alg».proof.Proof.KIPay
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen Idealize.ShloMosaic.ValueIdx

variable (m : (ℓ : Loc nD τ sig) → Buf (Elt Ideal) ℓ) (ρ : Dev nD → PrngReg)

/-! ## The layer before normalisation, from the arrays as launched -/

/-- x, adj, W, W_self, b as functions of coordinates. -/
abbrev fX (c : Dev nD) : Fin 10000 → Fin 128 → EReal := fun k j => aX m c (ix2 k j)
abbrev fAdj (c : Dev nD) : Fin 10000 → Fin 10000 → EReal := fun r k => aAdj m c (ix2 r k)
abbrev fW (c : Dev nD) : Fin 128 → Fin 128 → EReal := fun j n => aW m c (ix2 j n)
abbrev fWs (c : Dev nD) : Fin 128 → Fin 128 → EReal := fun j n => aWs m c (ix2 j n)
abbrev fB (c : Dev nD) : Fin 128 → EReal := fun n => aB m c (ix1 n)
abbrev fG (c : Dev nD) : Fin 128 → EReal := fun n => aG m c (ix1 n)
abbrev fBeta (c : Dev nD) : Fin 128 → EReal := fun n => aBeta m c (ix1 n)

/-- adj · (x · W) + x · W_self + b, row by row. -/
def oPre (c : Dev nD) : Fin 10000 → Fin 128 → EReal := GcnBn.pre (fX m c) (fAdj m c) (fW m c) (fWs m c) (fB m c)

/-- The support scratch after the first point is x · W. -/
theorem supAt_apply (c : Dev nD) (k : Fin 10000) (n : Fin 128) :
    supAt m c (ix2 k n) = GcnBn.sup (fX m c) (fW m c) k n := by
  unfold supAt supOf
  rw [PayValue.pay1_apply]
  rw [show (fun k j => iblk m c 0 pt0 (ix2 k j)) = fX m c from funext fun k => funext fun j => iblk0_apply m c pt0 k j,
    show (fun j n => iblk m c 2 pt0 (ix2 j n)) = fW m c from funext fun j => funext fun n => iblk2_apply m c pt0 j n]

/-- The grid coordinate of point `t` is its number. -/
theorem coords_val : ∀ t : Fin cfg0.N, ((grid0.coords t) 0).val = t.val :=
  (by decide +kernel : ∀ t : Fin grid0.N, ((grid0.coords t) 0).val = t.val)

/-- Position (p, j) of point `t`'s slab is row `400 t + p` of the array. -/
theorem slab_idx (t : Fin cfg0.N) (p : Fin 400) (j : Fin 128) (r : Fin 10000) (hr : r.val = 400 * t.val + p.val) :
    (slabRect (grid0.coords t)).emb (ix2 p j) = ix2 r j := by
  have h := k0_off1_eq (grid0.coords t)
  have hc := coords_val t
  funext a; apply Fin.ext
  match a with
  | ⟨0, _⟩ =>
    show k0_off1 (grid0.coords t) 0 + 1 * p.val = r.val
    rw [h]; show 400 * ((grid0.coords t) 0).val + 1 * p.val = r.val; omega
  | ⟨1, _⟩ =>
    show k0_off1 (grid0.coords t) 1 + 1 * j.val = j.val
    rw [h]; show 0 + 1 * j.val = j.val; omega

/-- The slab point `t` stores is rows `400 t …` of the layer before normalisation. -/
theorem slab_apply (c : Dev nD) (t : Fin cfg0.N) (p : Fin 400) (n : Fin 128) (r : Fin 10000) (hr : r.val = 400 * t.val + p.val) :
    slabOf (grid0.coords t) (iblk m c 0 t) (iblk m c 1 t) (iblk m c 3 t) (iblk m c 4 t) (supAt m c) (ix2 p n) = oPre m c r n := by
  unfold slabOf
  rw [PayValue.pay4_apply]
  unfold oPre GcnBn.pre
  refine congrArg₂ (· + ·) (congrArg₂ (· + ·) (Finset.sum_congr rfl fun k _ => ?_) (Finset.sum_congr rfl fun j _ => ?_)) ?_
  · rw [iblk1_apply m c t p k r hr, supAt_apply]
  · refine congrArg₂ (· * ·) ?_ (iblk3_apply m c t j n)
    show iblk m c 0 t ((slabRect (grid0.coords t)).emb (ix2 p j)) = _
    rw [slab_idx t p j r hr]
    exact iblk0_apply m c t r j
  · exact iblk4_apply m c t n

/-! ## One slab over the handed contents, row by row -/

theorem stepMid_in (t : Fin cfg0.N) (x0 : Vec Ideal S10000x128 .f32) (x1 : Vec Ideal S400x10000 .f32) (x3 : Vec Ideal S128x128 .f32)
    (x4 : Vec Ideal S1x128 .f32) (y s : Vec Ideal S10000x128 .f32) (p : Fin 400) (n : Fin 128) (r : Fin 10000)
    (hr : r.val = 400 * t.val + p.val) :
    stepMid (grid0.coords t) x0 x1 x3 x4 y s (ix2 r n) = slabOf (grid0.coords t) x0 x1 x3 x4 s (ix2 p n) := by
  unfold stepMid
  rw [← slab_idx t p n r hr]
  exact Rect.overlay_emb _ _ _ _

theorem stepMid_out (t : Fin cfg0.N) (x0 : Vec Ideal S10000x128 .f32) (x1 : Vec Ideal S400x10000 .f32) (x3 : Vec Ideal S128x128 .f32)
    (x4 : Vec Ideal S1x128 .f32) (y s : Vec Ideal S10000x128 .f32) (n : Fin 128) (r : Fin 10000)
    (hr : r.val < 400 * t.val ∨ 400 * t.val + 400 ≤ r.val) :
    stepMid (grid0.coords t) x0 x1 x3 x4 y s (ix2 r n) = y (ix2 r n) := by
  unfold stepMid
  refine Rect.overlay_of_not_mem _ _ _ ?_
  rw [Rect.mem_set_unit]
  intro hall
  have h0 := hall 0
  have h := k0_off1_eq (grid0.coords t)
  have hc := coords_val t
  rw [h] at h0
  have h0' : 400 * ((grid0.coords t) 0).val ≤ r.val ∧ r.val < 400 * ((grid0.coords t) 0).val + 400 := h0
  omega

end Cert.KernelIdeal.Body

end
-- ==== Proof.KIArr.lean ====
/-
  The output window's schedule, read for any relational proof data.

  The output array is one block, the whole array, at block index zero on both axes at every grid
  point; it is never fetched and is written back at the last point only. So the array keeps its
  entry contents through the first twenty-four points, and after the last point it holds, element
  by element, some contents the body may have left in the staging buffer there. And what the body
  may find in that buffer at a point is reached from the first point by the body's relation, one
  point at a time.
-/
import proofs.«178506_g1967095022032_cont_sun_m_789_21_alg».proof.Proof.Gen.KernelIdeal.Frame
import Idealize.ShloMosaic.Lib.Pipeline.Value
import Idealize.ShloMosaic.Lib.ValueIdx

set_option maxRecDepth 16384

noncomputable section

namespace Cert.KernelIdeal.Arr

open Idealize.ShloMosaic Idealize.ShloMosaic.TcCoe Idealize.SL Idealize.SL.Sem Cert.KernelIdeal Cert.KernelIdeal.Gen
open Idealize.ShloMosaic.ValueIdx

variable {c : Dev nD} (rd : Pipeline.RDat τ (Elt Ideal) Unit ℕ (UR sig nD τ) ℕ cfg0 c)

/-- the last grid point -/
abbrev ptLast : Fin cfg0.N := ⟨24, by decide⟩

/-- The grid has twenty-five points. -/
theorem N_eq : cfg0.N = 25 := N_0

/-- The output window is never fetched. -/
theorem fetch7 : ∀ t : Fin cfg0.N, (cfg0.win 7).fetch t = false :=
  (by decide +kernel : ∀ t : Fin grid0.N, win0_7.fetch t = false)

/-- Its block index is zero on both axes at every point. -/
theorem index7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

/-- Below the last point it is not written back. -/
theorem flush7_of_lt (t : Fin cfg0.N) (h : t.val < 24) : (cfg0.win 7).flush t = false := by
  cases hf : (cfg0.win 7).flush t with
  | false => rfl
  | true =>
    have := (flush0_7 t).mp hf
    omega

/-- At the last point it is. -/
theorem flush7_last : (cfg0.win 7).flush ptLast = true := (flush0_7 ptLast).mpr rfl

/-- One step of the array's history inside the grid. -/
theorem arrAt_succ (n : ℕ) (h : n < cfg0.N) :
    rd.ArrAt 7 (n + 1)
      = if (cfg0.win 7).flush ⟨n, h⟩ then rd.ArrStep 7 ⟨n, h⟩ (rd.ArrAt 7 n) else rd.ArrAt 7 n := by
  show (if h' : n < cfg0.N then
      (if (cfg0.win 7).flush ⟨n, h'⟩ then rd.ArrStep 7 ⟨n, h'⟩ (rd.ArrAt 7 n) else rd.ArrAt 7 n)
    else rd.ArrAt 7 n) = _
  rw [dif_pos h]

/-- Through the first twenty-four points the array is as at entry. -/
theorem arrAt_of_le : ∀ n : ℕ, n ≤ 24 → rd.ArrAt 7 n = fun G => G = rd.A 7
  | 0, _ => rfl
  | n + 1, hn => by
    have hN := N_eq
    have h : n < cfg0.N := by omega
    rw [arrAt_succ rd n h, flush7_of_lt ⟨n, h⟩ (by show n < 24; omega), if_neg Bool.false_ne_true]
    exact arrAt_of_le n (by omega)

theorem arr_final (F : Buf (Elt Ideal) ((cfg0.win 7).arr.view.loc (c.tc : Thread nD τ))) (h : rd.ArrAt 7 cfg0.N F) :
    ∃ X : S10000x128.Idx → EReal, rd.Leaves 7 ptLast X ∧ ∀ (r : Fin 10000) (n : Fin 128), (F : S10000x128.Idx → EReal) (ix2 r n) = X (ix2 r n) := by
  have h' : rd.ArrAt 7 (24 + 1) F := by
    have e : cfg0.N = 24 + 1 := N_eq
    rw [e] at h
    exact h
  rw [arrAt_succ rd 24 ptLast.isLt, flush7_last, if_pos rfl, arrAt_of_le rd 24 le_rfl] at h'
  obtain ⟨G₀, X, hG₀, hL, hF⟩ := h'
  refine ⟨X, hL, fun r n => ?_⟩
  have hemb : ((cfg0.win 7).blk ptLast).view.emb (ix2 r n : ((cfg0.win 7).xblock (cfg0.grid.coords ptLast)).Idx)
      = (ix2 r n : S10000x128.Idx) := by
    funext a; apply Fin.ext
    match a with
    | ⟨0, _⟩ =>
      show win0_7.index ptLast (0 : Fin 2) * 10000 + 1 * r.val = r.val
      rw [(index7 ptLast).1]; omega
    | ⟨1, _⟩ =>
      show win0_7.index ptLast (1 : Fin 2) * 128 + 1 * n.val = n.val
      rw [(index7 ptLast).2]; omega
  have hw := View.write_emb_of_mem (v := ((cfg0.win 7).blk ptLast).view) (Val := Elt Ideal) G₀
    ((cfg0.win 7).cut (cfg0.grid.coords ptLast) X) (Finset.mem_univ (ix2 r n : ((cfg0.win 7).xblock (cfg0.grid.coords ptLast)).Idx))
  rw [hemb] at hw
  rw [hF]
  exact hw.trans rfl

theorem finds_induct (S : Fin cfg0.N → (Y X : S10000x128.Idx → EReal) → Prop) (hS : rd.after 7 = S)
    (P : ℕ → (S10000x128.Idx → EReal) → Prop) (h0 : ∀ Y, P 0 Y)
    (hstep : ∀ (t : Fin cfg0.N), t.val < 24 → ∀ Y X, P t.val Y → S t Y X → P (t.val + 1) X) :
    ∀ (t : Fin cfg0.N) (Y : S10000x128.Idx → EReal), rd.Finds 7 t Y → P t.val Y := by
  subst hS
  have hN := N_eq
  rintro ⟨k, hk⟩
  induction k with
  | zero => intro Y _; exact h0 Y
  | succ k ih =>
    intro Y hY
    have hk' : k < cfg0.N := by omega
    rw [rd.finds_of_pos (fetch7 _) (Nat.succ_ne_zero k)] at hY
    have e : (⟨(⟨k + 1, hk⟩ : Fin cfg0.N).val - 1, Nat.lt_of_le_of_lt (Nat.sub_le _ _) (⟨k + 1, hk⟩ : Fin cfg0.N).isLt⟩ : Fin cfg0.N)
        = ⟨k, hk'⟩ := Fin.ext (show k + 1 - 1 = k by omega)
    rw [e] at hY
    rcases hY with hfl | ⟨Y', hY', ha⟩
    · rw [flush7_of_lt ⟨k, hk'⟩ (by show k < 24; omega)] at hfl
      exact absurd hfl Bool.false_ne_true
    · exact hstep ⟨k, hk'⟩ (by show k < 24; omega) Y' Y (ih hk' Y' hY') ha

end Cert.KernelIdeal.Arr

end
-- ==== Proof.KIFinal.lean ====
/-
  The kernel's result at the exact-real instance. Point by point the resident output gains 400 rows
  of the layer adj · (x · W) + x · W_self + b, whatever its staging buffer held at the start; at the
  last point all 10000 rows are there and the whole buffer is replaced by its normalisation; that is
  what is written back to the result array.
-/
import proofs.«178506_g1967095022032_cont_sun_m_789_21_alg».proof.Proof.KISlab
import proofs.«178506_g1967095022032_cont_sun_m_789_21_alg».proof.Proof.KIArr
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen Idealize.ShloMosaic.ValueIdx

variable (m : (ℓ : Loc nD τ sig) → Buf (Elt Ideal) ℓ) (ρ : Dev nD → PrngReg)

/-! ## Rows filled so far -/

/-- Rows below `400 n` of a buffer hold the layer before normalisation. -/
def RowsDone (c : Dev nD) (n : ℕ) (Y : S10000x128.Idx → EReal) : Prop :=
  ∀ (r : Fin 10000) (n' : Fin 128), r.val < 400 * n → Y (ix2 r n') = oPre m c r n'

/-- Storing point `t`'s slab over a buffer whose first `400 t` rows are done makes `400 (t + 1)` rows done. -/
theorem mid_rows (c : Dev nD) (t : Fin cfg0.N) (Y : S10000x128.Idx → EReal) (h : RowsDone m c t.val Y) :
    RowsDone m c (t.val + 1)
      (stepMid (grid0.coords t) (iblk m c 0 t) (iblk m c 1 t) (iblk m c 3 t) (iblk m c 4 t) Y (supAt m c)) := by
  intro r n' hr
  by_cases hlo : r.val < 400 * t.val
  · rw [stepMid_out t _ _ _ _ _ _ n' r (Or.inl hlo)]; exact h r n' hlo
  · have hp : r.val - 400 * t.val < 400 := by omega
    have hrp : r.val = 400 * t.val + (⟨r.val - 400 * t.val, hp⟩ : Fin 400).val := by
      show r.val = 400 * t.val + (r.val - 400 * t.val); omega
    rw [stepMid_in t _ _ _ _ _ _ ⟨r.val - 400 * t.val, hp⟩ n' r hrp, slab_apply m c t _ n' r hrp]

/-- Every point before the last adds its slab. -/
theorem stepAt_rows (c : Dev nD) (t : Fin cfg0.N) (ht : t.val < 24) (Y : S10000x128.Idx → EReal)
    (h : RowsDone m c t.val Y) : RowsDone m c (t.val + 1) (stepAt m c t Y) := by
  unfold stepAt
  by_cases h0 : t.val = 0
  · rw [if_pos h0]
    have ht0 : t = pt0 := Fin.ext h0
    subst ht0
    exact mid_rows m c pt0 Y h
  · rw [if_neg h0, if_neg (by omega : ¬t.val = 24)]
    exact mid_rows m c t Y h

/-- The last point, on a buffer whose first 9600 rows are done: the last slab completes the layer,
    and what is stored is its normalisation in the kernel's spelling. -/
theorem last_apply (c : Dev nD) (Y : S10000x128.Idx → EReal) (h : RowsDone m c 24 Y) (r : Fin 10000) (n : Fin 128) :
    stepAt m c Arr.ptLast Y (ix2 r n) = GcnBn.kOut (oPre m c) (fG m c) (fBeta m c) r n := by
  unfold stepAt
  rw [if_neg (by decide : ¬(Arr.ptLast : Fin cfg0.N).val = 0), if_pos (rfl : (Arr.ptLast : Fin cfg0.N).val = 24)]
  unfold stepLast
  rw [PayValue.pay5_apply]
  have hall : (fun r n => stepMid (grid0.coords Arr.ptLast) (iblk m c 0 Arr.ptLast) (iblk m c 1 Arr.ptLast) (iblk m c 3 Arr.ptLast)
      (iblk m c 4 Arr.ptLast) Y (supAt m c) (ix2 r n)) = oPre m c :=
    funext fun r => funext fun n => mid_rows m c Arr.ptLast Y h r n (by
      have := r.isLt
      show r.val < 400 * (24 + 1); omega)
  rw [hall,
    show (fun n => iblk m c 5 Arr.ptLast (ix2 (0 : Fin 1) n)) = fG m c from funext fun n => iblk5_apply m c Arr.ptLast n,
    show (fun n => iblk m c 6 Arr.ptLast (ix2 (0 : Fin 1) n)) = fBeta m c from funext fun n => iblk6_apply m c Arr.ptLast n]

/-! ## The kernel's result -/

/-- The program runs; its result array holds, at every (row, column), the normalised layer in the
    kernel's spelling; its arguments are unchanged. -/
theorem kernel_value : θ_run defs (onTc (τ := τ) (main (F := Ideal))) ⟨m, fun _ => 0, ρ⟩ (fun st => ∀ c : Dev nD,
      (∀ (r : Fin 10000) (n : Fin 128),
        (st.2.mem ((c.tc : Thread nD τ).loc main_v0) : S10000x128.Idx → EReal) (ix2 r n) = GcnBn.kOut (oPre m c) (fG m c) (fBeta m c) r n)
      ∧ st.2.mem ((c.tc : Thread nD τ).loc main_arg0) = m ((c.tc : Thread nD τ).loc main_arg0)
      ∧ st.2.mem ((c.tc : Thread nD τ).loc main_arg1) = m ((c.tc : Thread nD τ).loc main_arg1)
      ∧ st.2.mem ((c.tc : Thread nD τ).loc main_arg2) = m ((c.tc : Thread nD τ).loc main_arg2)
      ∧ st.2.mem ((c.tc : Thread nD τ).loc main_arg3) = m ((c.tc : Thread nD τ).loc main_arg3)
      ∧ st.2.mem ((c.tc : Thread nD τ).loc main_arg4) = m ((c.tc : Thread nD τ).loc main_arg4)
      ∧ st.2.mem ((c.tc : Thread nD τ).loc main_arg5) = m ((c.tc : Thread nD τ).loc main_arg5)
      ∧ st.2.mem ((c.tc : Thread nD τ).loc main_arg6) = m ((c.tc : Thread nD τ).loc main_arg6)) :=
  (θ_run defs _ _).mono (fun st h c =>
    ⟨fun r n => by
      obtain ⟨X, ⟨Y, hY, hX⟩, hF⟩ := Arr.arr_final (rd m c) _ ((h c).1 7)
      rw [rd_after7] at hX
      have hP : RowsDone m c (Arr.ptLast : Fin cfg0.N).val Y :=
        Arr.finds_induct (rd m c) (fun t Y X => X = stepAt m c t Y) (rd_after7 m c) (RowsDone m c)
          (fun _ _ _ h => absurd h (by omega))
          (fun t ht Y X hP hS => hS ▸ stepAt_rows m c t ht Y hP) Arr.ptLast Y hY
      rw [hF r n, hX]
      exact last_apply m c Y hP r n,
      (Eq.mp (congrFun ((rd m c).ArrAt_in 0 rfl _) _) ((h c).1 0)).trans ((rd_A m c 0).trans (V_main_arg0 m c)),
      (Eq.mp (congrFun ((rd m c).ArrAt_in 1 rfl _) _) ((h c).1 1)).trans ((rd_A m c 1).trans (V_main_arg1 m c)),
      (Eq.mp (congrFun ((rd m c).ArrAt_in 2 rfl _) _) ((h c).1 2)).trans ((rd_A m c 2).trans (V_main_arg2 m c)),
      (Eq.mp (congrFun ((rd m c).ArrAt_in 3 rfl _) _) ((h c).1 3)).trans ((rd_A m c 3).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) (run_main m ρ)

end Cert.KernelIdeal.Body

end
-- ==== Proof.RefRun.lean ====
/-
  The reference program's run, read back as one term.

  The program is a straight line once its two outlined functions are unfolded at their calls: the
  thirteen operations before the variance call, the nineteen of the variance function over that
  call's buffers, the three of the selection it calls in turn, and the sixteen after. Every fair
  execution ends with the result buffer at the composition of the operations' functions over the
  arguments' launch contents (`refTerm`), the arguments unchanged.
-/
import proofs.«178506_g1967095022032_cont_sun_m_789_21_alg».proof.ReferenceIdeal
import proofs.«178506_g1967095022032_cont_sun_m_789_21_alg».proof.Proof.Gen.ReferenceIdeal
import Idealize.ShloMosaic.Lib.StableHlo.Run

noncomputable section

namespace Cert.ReferenceIdeal.RefValue

open Idealize.ShloMosaic Idealize.ShloMosaic.TcCoe Idealize.SL.Sem Cert.ReferenceIdeal
open Cert.ReferenceIdeal.Gen Idealize.ShloMosaic.StableHlo

variable {F : FTy → Type} [FloatOps F]

/-- The fifty-one operations in order, the calls unfolded: each callee operation stands at its
    call site over the call's own buffers. -/
abbrev ops : List (HloOp τ sig (Elt F)) :=
  [ binary main_arg0 main_arg2 main_v0 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_arg1 main_v0 main_v1 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    binary main_arg0 main_arg3 main_v2 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_v1 main_v2 main_v3 (addf : (⟨S10000x128, .f32⟩ : BufTy).Contents (Elt F) → (⟨S10000x128, .f32⟩ : BufTy).Contents (Elt F) → (⟨S10000x128, .f32⟩ : BufTy).Contents (Elt F)),
    unary main_arg4 main_v4 (broadcastInDim S1x128 ![1] bcast_S128_S1x128_1 : (⟨S128, .f32⟩ : BufTy).Contents (Elt F) → (⟨S1x128, .f32⟩ : BufTy).Contents (Elt F)),
    unary main_v4 main_v5 (broadcastInDim S10000x128 ![0, 1] bcast_S1x128_S10000x128_0_1 : (⟨S1x128, .f32⟩ : BufTy).Contents (Elt F) → (⟨S10000x128, .f32⟩ : BufTy).Contents (Elt F)),
    binary main_v3 main_v5 main_v6 (addf : (⟨S10000x128, .f32⟩ : BufTy).Contents (Elt F) → (⟨S10000x128, .f32⟩ : BufTy).Contents (Elt F) → (⟨S10000x128, .f32⟩ : BufTy).Contents (Elt F)),
    nullary main_cst (constant S_ .f32 0x00000000#32),
    binary main_v6 main_cst main_v7 ((fun x v => Host.reduceAdd x v reducesTo_S10000x128_S128_d0 h_S_) : (⟨S10000x128, .f32⟩ : BufTy).Contents (Elt F) → (⟨S_, .f32⟩ : BufTy).Contents (Elt F) → (⟨S128, .f32⟩ : BufTy).Contents (Elt F)),
    nullary main_cst_0 (constant S_ .f32 0x461C4000#32),
    unary main_cst_0 main_v8 (broadcastInDim S128 ![] bcast_S_S128 : (⟨S_, .f32⟩ : BufTy).Contents (Elt F) → (⟨S128, .f32⟩ : BufTy).Contents (Elt F)),
    binary main_v7 main_v8 main_v9 (Host.divf : (⟨S128, .f32⟩ : BufTy).Contents (Elt F) → (⟨S128, .f32⟩ : BufTy).Contents (Elt F) → (⟨S128, .f32⟩ : BufTy).Contents (Elt F)),
    nullary main_c (constantI S_ 32 0#32),
    TRef.nullary main_call0.cst (constant S_ .f32 0x00000000#32),
    TRef.binary (.of main_v6) main_call0.cst main_call0.v0 (fun x v => Host.reduceAdd x v reducesTo_S10000x128_S128_d0 h_S_),
    TRef.unary main_call0.v0 main_call0.v1 (broadcastInDim S1x128 ![1] bcast_S128_S1x128_1),
    TRef.nullary main_call0.cst_0 (constant S_ .f32 0x461C4000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S10000x128 ![0, 1] bcast_S1x128_S10000x128_0_1),
    TRef.binary (.of main_v6) main_call0.v4 main_call0.v5 subf,
    TRef.binary main_call0.v5 main_call0.v5 main_call0.v6 mulf,
    TRef.unary (.of main_c) main_call0.v7 (sitofp .f32),
    TRef.nullary main_call0.cst_1 (constant S_ .f32 0x461C4000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S10000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0_call0.v0 id,
    TRef.unary main_call0_call0.v0 main_call0_call0.v1 (broadcastInDim S128 ![] bcast_S_S128),
    TRef.ternary main_call0.v12 main_call0.v11 main_call0_call0.v1 main_call0_call0.v2 (fun p a b => select (broadcastInDim S128 ![] bcast_S_S128 p) a b),
    unary main_v9 main_v11 (broadcastInDim S1x128 ![1] bcast_S128_S1x128_1 : (⟨S128, .f32⟩ : BufTy).Contents (Elt F) → (⟨S1x128, .f32⟩ : BufTy).Contents (Elt F)),
    unary main_v11 main_v12 (broadcastInDim S10000x128 ![0, 1] bcast_S1x128_S10000x128_0_1 : (⟨S1x128, .f32⟩ : BufTy).Contents (Elt F) → (⟨S10000x128, .f32⟩ : BufTy).Contents (Elt F)),
    binary main_v6 main_v12 main_v13 (subf : (⟨S10000x128, .f32⟩ : BufTy).Contents (Elt F) → (⟨S10000x128, .f32⟩ : BufTy).Contents (Elt F) → (⟨S10000x128, .f32⟩ : BufTy).Contents (Elt F)),
    nullary main_cst_1 (constant S_ .f32 0x3727C5AC#32),
    unary main_cst_1 main_v14 (broadcastInDim S128 ![] bcast_S_S128 : (⟨S_, .f32⟩ : BufTy).Contents (Elt F) → (⟨S128, .f32⟩ : BufTy).Contents (Elt F)),
    binary main_v10 main_v14 main_v15 (addf : (⟨S128, .f32⟩ : BufTy).Contents (Elt F) → (⟨S128, .f32⟩ : BufTy).Contents (Elt F) → (⟨S128, .f32⟩ : BufTy).Contents (Elt F)),
    unary main_v15 main_v16 (Host.sqrt : (⟨S128, .f32⟩ : BufTy).Contents (Elt F) → (⟨S128, .f32⟩ : BufTy).Contents (Elt F)),
    unary main_v16 main_v17 (broadcastInDim S1x128 ![1] bcast_S128_S1x128_1 : (⟨S128, .f32⟩ : BufTy).Contents (Elt F) → (⟨S1x128, .f32⟩ : BufTy).Contents (Elt F)),
    unary main_v17 main_v18 (broadcastInDim S10000x128 ![0, 1] bcast_S1x128_S10000x128_0_1 : (⟨S1x128, .f32⟩ : BufTy).Contents (Elt F) → (⟨S10000x128, .f32⟩ : BufTy).Contents (Elt F)),
    binary main_v13 main_v18 main_v19 (Host.divf : (⟨S10000x128, .f32⟩ : BufTy).Contents (Elt F) → (⟨S10000x128, .f32⟩ : BufTy).Contents (Elt F) → (⟨S10000x128, .f32⟩ : BufTy).Contents (Elt F)),
    unary main_arg5 main_v20 (broadcastInDim S1x128 ![1] bcast_S128_S1x128_1 : (⟨S128, .f32⟩ : BufTy).Contents (Elt F) → (⟨S1x128, .f32⟩ : BufTy).Contents (Elt F)),
    unary main_v20 main_v21 (broadcastInDim S10000x128 ![0, 1] bcast_S1x128_S10000x128_0_1 : (⟨S1x128, .f32⟩ : BufTy).Contents (Elt F) → (⟨S10000x128, .f32⟩ : BufTy).Contents (Elt F)),
    binary main_v19 main_v21 main_v22 (mulf : (⟨S10000x128, .f32⟩ : BufTy).Contents (Elt F) → (⟨S10000x128, .f32⟩ : BufTy).Contents (Elt F) → (⟨S10000x128, .f32⟩ : BufTy).Contents (Elt F)),
    unary main_arg6 main_v23 (broadcastInDim S1x128 ![1] bcast_S128_S1x128_1 : (⟨S128, .f32⟩ : BufTy).Contents (Elt F) → (⟨S1x128, .f32⟩ : BufTy).Contents (Elt F)),
    unary main_v23 main_v24 (broadcastInDim S10000x128 ![0, 1] bcast_S1x128_S10000x128_0_1 : (⟨S1x128, .f32⟩ : BufTy).Contents (Elt F) → (⟨S10000x128, .f32⟩ : BufTy).Contents (Elt F)),
    binary main_v22 main_v24 main_v25 (addf : (⟨S10000x128, .f32⟩ : BufTy).Contents (Elt F) → (⟨S10000x128, .f32⟩ : BufTy).Contents (Elt F) → (⟨S10000x128, .f32⟩ : BufTy).Contents (Elt F)) ]

-- fifty-one binds re-associated: one level of recursion per statement
set_option maxRecDepth 2048 in
/-- The program is that straight line: the two functions unfolded at their calls and sequencing
    re-associated, both sides are one chain of steps. -/
theorem main_eq (c : Dev nD) : main (F := F) c = seq ops := by
  simp only [main, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., binary_bufs_sub .., binary_bufs_sub .., binary_bufs_sub .., unary_bufs_sub .., unary_bufs_sub ..,
    binary_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    unary_bufs_sub .., unary_bufs_sub .., binary_bufs_sub ..⟩

/-- The result as one term of the seven arguments: the operations' functions composed in the
    program's order. The pre-normalisation layer `o` feeds the column mean twice (once in the main
    line, once inside the variance), the deviations, and the final centring. -/
def refTerm (a0 : FVec F S10000x128 .f32) (a1 : FVec F S10000x10000 .f32) (a2 a3 : FVec F S128x128 .f32)
    (a4 a5 a6 : FVec F S128 .f32) : FVec F S10000x128 .f32 :=
  -- the layer before normalisation
  let sup : FVec F S10000x128 .f32 := Host.dotGeneral (F := F) dot_S10000x128_S128x128_S10000x128_1_0_0_1_n_n none a0 a2
  let agg : FVec F S10000x128 .f32 := Host.dotGeneral (F := F) dot_S10000x10000_S10000x128_S10000x128_1_0_0_1_n_n none a1 sup
  let slf : FVec F S10000x128 .f32 := Host.dotGeneral (F := F) dot_S10000x128_S128x128_S10000x128_1_0_0_1_n_n none a0 a3
  let o : FVec F S10000x128 .f32 := addf (addf agg slf) (broadcastInDim S10000x128 ![0, 1] bcast_S1x128_S10000x128_0_1 (broadcastInDim S1x128 ![1] bcast_S128_S1x128_1 a4))
  -- the column mean
  let mean : FVec F S128 .f32 :=
    Host.divf (F := F) (Host.reduceAdd (F := F) o (constant (F := F) S_ .f32 0x00000000#32) reducesTo_S10000x128_S128_d0 h_S_)
      (broadcastInDim S128 ![] bcast_S_S128 (constant (F := F) S_ .f32 0x461C4000#32))
  -- the variance: the mean once more in row form, the squared deviations summed, over (count − 0)
  let meanRow : FVec F S1x128 .f32 :=
    Host.divf (F := F)
      (broadcastInDim S1x128 ![1] bcast_S128_S1x128_1 (Host.reduceAdd (F := F) o (constant (F := F) S_ .f32 0x00000000#32) reducesTo_S10000x128_S128_d0 h_S_))
      (broadcastInDim S1x128 ![] bcast_S_S1x128 (constant (F := F) S_ .f32 0x461C4000#32))
  let dev : FVec F S10000x128 .f32 := subf o (broadcastInDim S10000x128 ![0, 1] bcast_S1x128_S10000x128_0_1 meanRow)
  let cnt : FVec F S_ .f32 := subf (constant (F := F) S_ .f32 0x461C4000#32) (sitofp .f32 (constantI S_ 32 0#32))
  let msq : FVec F S128 .f32 :=
    Host.divf (F := F) (Host.reduceAdd (F := F) (mulf dev dev) (constant (F := F) S_ .f32 0x00000000#32) reducesTo_S10000x128_S128_d0 h_S_)
      (broadcastInDim S128 ![] bcast_S_S128 cnt)
  let var : FVec F S128 .f32 :=
    select (broadcastInDim S128 ![] bcast_S_S128 (cmpf .ogt cnt (constant (F := F) S_ .f32 0x00000000#32))) msq
      (broadcastInDim S128 ![] bcast_S_S128 (constant (F := F) S_ .f32 0x7FC00000#32))
  -- centre, divide by the root, scale and shift
  let cen : FVec F S10000x128 .f32 := subf o (broadcastInDim S10000x128 ![0, 1] bcast_S1x128_S10000x128_0_1 (broadcastInDim S1x128 ![1] bcast_S128_S1x128_1 mean))
  let root : FVec F S128 .f32 := Host.sqrt (F := F) (addf var (broadcastInDim S128 ![] bcast_S_S128 (constant (F := F) S_ .f32 0x3727C5AC#32)))
  let nrm : FVec F S10000x128 .f32 := Host.divf (F := F) cen (broadcastInDim S10000x128 ![0, 1] bcast_S1x128_S10000x128_0_1 (broadcastInDim S1x128 ![1] bcast_S128_S1x128_1 root))
  addf (mulf nrm (broadcastInDim S10000x128 ![0, 1] bcast_S1x128_S10000x128_0_1 (broadcastInDim S1x128 ![1] bcast_S128_S1x128_1 a5))) (broadcastInDim S10000x128 ![0, 1] bcast_S1x128_S10000x128_0_1 (broadcastInDim S1x128 ![1] bcast_S128_S1x128_1 a6))

/-- On every device, for any float values, from any memory with zero counters: every weakly fair
    execution of the program terminates with the result buffer at `refTerm` of the arguments' launch
    contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v25) = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c main_v25).trans (by after_results_simp; rfl),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp),
      (h c main_arg6).trans (by after_results_simp)⟩)
    (run_seq scopedRefs_eq scopedSems_eq defs main (fun _ => ops) main_eq (fun _ => ops_sub) m ρ)

end Cert.ReferenceIdeal.RefValue

end
-- ==== Proof.RefRead.lean ====
/-
  The reference program's result read at one element.

  `refTerm` is the composition of the program's operations on whole arrays. Here each stage is
  read at an index: a contraction is the sum over its one contracted coordinate of the operands'
  products, a column reduction from the zero word is the sum down the column, a broadcast reads
  its operand at the coordinates it keeps, the arithmetic is the extended reals'. The node count
  is positive, so the variance's guard on `count − 0 > 0` selects the mean squared deviation and
  never the not-a-number word. Assembled, the element at row `r`, column `n` is the second
  spelling of the normalised layer (`GcnBn.rOut` of `GcnBn.pre`).
-/
import proofs.«178506_g1967095022032_cont_sun_m_789_21_alg».proof.Proof.RefRun
import proofs.«178506_g1967095022032_cont_sun_m_789_21_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.ReferenceIdeal.RefValue

open Idealize.ShloMosaic Idealize.ShloMosaic.TcCoe Idealize.SL.Sem Cert.ReferenceIdeal
open Cert.ReferenceIdeal.Gen Idealize.ShloMosaic.ValueIdx

/-! ## Broadcasts read at an index -/

section Broadcasts
variable {α : Type}

/-- A one-row matrix copied down the rows reads its row's entry. -/
theorem bcRows_apply (x : S1x128.Idx → α) (r : Fin 10000) (n : Fin 128) :
    broadcastInDim S10000x128 ![0, 1] bcast_S1x128_S10000x128_0_1 x (ix2 r n) = x (ix2 (0 : Fin 1) n) :=
  broadcastInDim_apply _ _ x (ix2 r n) (ix2 (0 : Fin 1) n) (fun a => by
    match a with
    | ⟨0, _⟩ => rfl
    | ⟨1, _⟩ => rfl)

/-- A vector laid out as one row reads the vector's entry. -/
theorem bcRow_apply (x : S128.Idx → α) (n : Fin 128) :
    broadcastInDim S1x128 ![1] bcast_S128_S1x128_1 x (ix2 (0 : Fin 1) n) = x (ix1 n) :=
  broadcastInDim_apply _ _ x (ix2 (0 : Fin 1) n) (ix1 n) (fun a => by
    match a with
    | ⟨0, _⟩ => rfl)

/-- A vector copied into every row reads the vector's entry at the column. -/
theorem bcCols_apply (x : S128.Idx → α) (r : Fin 10000) (n : Fin 128) :
    broadcastInDim S10000x128 ![0, 1] bcast_S1x128_S10000x128_0_1 (broadcastInDim S1x128 ![1] bcast_S128_S1x128_1 x) (ix2 r n)
      = x (ix1 n) := by
  rw [bcRows_apply, bcRow_apply]

end Broadcasts

/-! ## The column sum -/

/-- The reduction down the rows from the zero word is the sum of the column. -/
theorem colsum_apply (x : FVec Ideal S10000x128 .f32) (n : Fin 128) :
    Host.reduceAdd (F := Ideal) x (constant (F := Ideal) S_ .f32 0x00000000#32) reducesTo_S10000x128_S128_d0 h_S_ (ix1 n)
      = ∑ r : Fin 10000, x (ix2 r n) := by
  rw [hostReduceAdd_apply, constant_apply, Ideal.ofBits_zero_f32,
    Ideal.hostReduceAdd_single reducesTo_S10000x128_S128_d0 (by decide), zero_add]
  refine Finset.sum_congr rfl fun k _ => ?_
  exact congrArg x (funext fun a => Fin.ext (by
    match a with
    | ⟨0, _⟩ => rfl
    | ⟨1, _⟩ => rfl))

/-! ## The contractions

Each product contracts the left operand's columns with the right operand's rows. The operand
indices at output index `i` and contraction index `q`: the left is (row of `i`, `q`), the right
(`q`, column of `i`). -/

section Dots

theorem lhsA_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl
theorem lhsA_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhsA_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhsA_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- The feature product at (r, n): the sum over the 128 input features. -/
theorem dotA_apply (x : FVec Ideal S10000x128 .f32) (w : FVec Ideal S128x128 .f32) (r : Fin 10000) (n : Fin 128) :
    Host.dotGeneral (F := Ideal) dot_S10000x128_S128x128_S10000x128_1_0_0_1_n_n none x w (ix2 r n) = ∑ j : Fin 128, x (ix2 r j) * w (ix2 j n) := by
  simp only [Host.dotGeneral]
  rw [Ideal.dotGeneral_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 r n) ((contrEquiv1 dot_S10000x128_S128x128_S10000x128_1_0_0_1_n_n 128 rfl rfl).symm k) = ix2 r k :=
    funext fun a => Fin.ext (by
      match a with
      | ⟨0, _⟩ => exact lhsA_0 _ _
      | ⟨1, _⟩ => exact (lhsA_1 _ _).trans hk)
  have er : dot_S10000x128_S128x128_S10000x128_1_0_0_1_n_n.rhsIdx (ix2 r n) ((contrEquiv1 dot_S10000x128_S128x128_S10000x128_1_0_0_1_n_n 128 rfl rfl).symm k) = ix2 k n :=
    funext fun a => Fin.ext (by
      match a with
      | ⟨0, _⟩ => exact (rhsA_0 _ _).trans hk
      | ⟨1, _⟩ => exact rhsA_1 _ _)
  rw [el, er]

theorem lhsB_0 (i : S10000x128.Idx) (q : dot_S10000x10000_S10000x128_S10000x128_1_0_0_1_n_n.contr.Idx) :
    (dot_S10000x10000_S10000x128_S10000x128_1_0_0_1_n_n.lhsIdx i q 0).val = (i 0).val := by
  unfold DotDims.lhsIdx
  rw [dif_neg (show ¬(0 : Fin S10000x10000.rank) ∈ dot_S10000x10000_S10000x128_S10000x128_1_0_0_1_n_n.lhsBatch by decide),
    dif_pos (show (0 : Fin S10000x10000.rank) ∈ dot_S10000x10000_S10000x128_S10000x128_1_0_0_1_n_n.lhsNonContracting by decide)]
  rfl
theorem lhsB_1 (i : S10000x128.Idx) (q : dot_S10000x10000_S10000x128_S10000x128_1_0_0_1_n_n.contr.Idx) :
    (dot_S10000x10000_S10000x128_S10000x128_1_0_0_1_n_n.lhsIdx i q 1).val = (q ⟨0, by decide⟩).val :=
  dot_S10000x10000_S10000x128_S10000x128_1_0_0_1_n_n.lhsIdx_val_of_single rfl i q
theorem rhsB_0 (i : S10000x128.Idx) (q : dot_S10000x10000_S10000x128_S10000x128_1_0_0_1_n_n.contr.Idx) :
    (dot_S10000x10000_S10000x128_S10000x128_1_0_0_1_n_n.rhsIdx i q 0).val = (q ⟨0, by decide⟩).val :=
  dot_S10000x10000_S10000x128_S10000x128_1_0_0_1_n_n.rhsIdx_val_of_single rfl i q
theorem rhsB_1 (i : S10000x128.Idx) (q : dot_S10000x10000_S10000x128_S10000x128_1_0_0_1_n_n.contr.Idx) :
    (dot_S10000x10000_S10000x128_S10000x128_1_0_0_1_n_n.rhsIdx i q 1).val = (i 1).val := by
  unfold DotDims.rhsIdx
  rw [dif_neg (show ¬(1 : Fin S10000x128.rank) ∈ dot_S10000x10000_S10000x128_S10000x128_1_0_0_1_n_n.rhsBatch by decide),
    dif_pos (show (1 : Fin S10000x128.rank) ∈ dot_S10000x10000_S10000x128_S10000x128_1_0_0_1_n_n.rhsNonContracting by decide)]
  rfl

/-- The neighbourhood product at (r, n): the sum over the 10000 nodes. -/
theorem dotB_apply (a : FVec Ideal S10000x10000 .f32) (s : FVec Ideal S10000x128 .f32) (r : Fin 10000) (n : Fin 128) :
    Host.dotGeneral (F := Ideal) dot_S10000x10000_S10000x128_S10000x128_1_0_0_1_n_n none a s (ix2 r n) = ∑ k : Fin 10000, a (ix2 r k) * s (ix2 k n) := by
  simp only [Host.dotGeneral]
  rw [Ideal.dotGeneral_apply, ← Equiv.sum_comp (contrEquiv1 dot_S10000x10000_S10000x128_S10000x128_1_0_0_1_n_n 10000 rfl rfl).symm]
  refine Finset.sum_congr rfl fun k _ => ?_
  have hk := contrEquiv1_symm_val dot_S10000x10000_S10000x128_S10000x128_1_0_0_1_n_n 10000 rfl rfl k
  have el : dot_S10000x10000_S10000x128_S10000x128_1_0_0_1_n_n.lhsIdx (ix2 r n) ((contrEquiv1 dot_S10000x10000_S10000x128_S10000x128_1_0_0_1_n_n 10000 rfl rfl).symm k) = ix2 r k :=
    funext fun a => Fin.ext (by
      match a with
      | ⟨0, _⟩ => exact lhsB_0 _ _
      | ⟨1, _⟩ => exact (lhsB_1 _ _).trans hk)
  have er : dot_S10000x10000_S10000x128_S10000x128_1_0_0_1_n_n.rhsIdx (ix2 r n) ((contrEquiv1 dot_S10000x10000_S10000x128_S10000x128_1_0_0_1_n_n 10000 rfl rfl).symm k) = ix2 k n :=
    funext fun a => Fin.ext (by
      match a with
      | ⟨0, _⟩ => exact (rhsB_0 _ _).trans hk
      | ⟨1, _⟩ => exact rhsB_1 _ _)
  rw [el, er]

end Dots

/-! ## The stages of the normalisation, over any layer `o` -/

/-- The host's square root at an index is the extended reals' root of the element. -/
theorem hostSqrt_apply {s : Shape} {φ : FTy} (a : FVec Ideal s φ) (i : s.Idx) : Host.sqrt a i = Ideal.sqrt (a i) := rfl

section Stages

variable (o : FVec Ideal S10000x128 .f32)

/-- The column mean: the column sum over the node-count word. -/
def meanT : FVec Ideal S128 .f32 :=
  Host.divf (F := Ideal) (Host.reduceAdd (F := Ideal) o (constant (F := Ideal) S_ .f32 0x00000000#32) reducesTo_S10000x128_S128_d0 h_S_) (broadcastInDim S128 ![] bcast_S_S128 (constant (F := Ideal) S_ .f32 0x461C4000#32))

theorem meanT_apply (n : Fin 128) : meanT o (ix1 n) = GcnBn.rMean (fun r n => o (ix2 r n)) n := by
  unfold meanT
  rw [hostDivf_apply, colsum_apply, broadcastInDim_scalar_apply, constant_apply]
  rfl

/-- The same mean as the variance computes it, laid out as one row. -/
def meanRowT : FVec Ideal S1x128 .f32 :=
  Host.divf (F := Ideal) (broadcastInDim S1x128 ![1] bcast_S128_S1x128_1 (Host.reduceAdd (F := Ideal) o (constant (F := Ideal) S_ .f32 0x00000000#32) reducesTo_S10000x128_S128_d0 h_S_)) (broadcastInDim S1x128 ![] bcast_S_S1x128 (constant (F := Ideal) S_ .f32 0x461C4000#32))

theorem meanRowT_apply (n : Fin 128) : meanRowT o (ix2 (0 : Fin 1) n) = GcnBn.rMean (fun r n => o (ix2 r n)) n := by
  unfold meanRowT
  rw [hostDivf_apply, bcRow_apply, colsum_apply, broadcastInDim_scalar_apply, constant_apply]
  rfl

/-- The deviations from the column mean. -/
def devT : FVec Ideal S10000x128 .f32 := subf o (broadcastInDim S10000x128 ![0, 1] bcast_S1x128_S10000x128_0_1 (meanRowT o))

theorem devT_apply (r : Fin 10000) (n : Fin 128) : devT o (ix2 r n) = o (ix2 r n) - GcnBn.rMean (fun r n => o (ix2 r n)) n := by
  unfold devT
  rw [subf_apply, bcRows_apply, meanRowT_apply]

/-- The variance's divisor: the node count less the integer zero converted. -/
def cntT : FVec Ideal S_ .f32 := subf (constant (F := Ideal) S_ .f32 0x461C4000#32) (sitofp .f32 (constantI S_ 32 0#32))

theorem cntT_apply : cntT ix0 = GcnBn.tenK - 0 := by
  have h0 : (FloatOps.sitofp (F := Ideal) .f32 (constantI S_ 32 0#32 ix0) : EReal) = 0 := by
    show (((0#32 : BitVec 32).toInt : ℝ) : EReal) = 0
    rw [BitVec.toInt_zero, Int.cast_zero, EReal.coe_zero]
  unfold cntT
  rw [subf_apply, constant_apply, sitofp_apply, h0]
  rfl

/-- The mean squared deviation. -/
def msqT : FVec Ideal S128 .f32 :=
  Host.divf (F := Ideal) (Host.reduceAdd (F := Ideal) (mulf (devT o) (devT o)) (constant (F := Ideal) S_ .f32 0x00000000#32) reducesTo_S10000x128_S128_d0 h_S_) (broadcastInDim S128 ![] bcast_S_S128 cntT)

theorem msqT_apply (n : Fin 128) : msqT o (ix1 n) = GcnBn.rVar (fun r n => o (ix2 r n)) n := by
  unfold msqT
  rw [hostDivf_apply, colsum_apply, broadcastInDim_scalar_apply, cntT_apply]
  show _ = Ideal.div (∑ r : Fin 10000, (o (ix2 r n) - GcnBn.rMean (fun r n => o (ix2 r n)) n) * (o (ix2 r n) - GcnBn.rMean (fun r n => o (ix2 r n)) n))
    (GcnBn.tenK - 0)
  refine congrArg (Ideal.div · _) (Finset.sum_congr rfl fun r _ => ?_)
  rw [mulf_apply, devT_apply]

/-- The divisor is positive, so the guard's bit is set. -/
theorem guard_apply (h10k : GcnBn.tenK = ((10000 : ℝ) : EReal)) :
    cmpf .ogt cntT (constant (F := Ideal) S_ .f32 0x00000000#32) ix0 = 1#1 := by
  rw [cmpf_apply, cntT_apply, constant_apply, Ideal.ofBits_zero_f32, h10k]
  show BitVec.ofBool (decide ((0 : EReal) < ((10000 : ℝ) : EReal) - 0)) = 1#1
  rw [sub_zero, decide_eq_true (EReal.coe_pos.mpr (by norm_num))]
  rfl

/-- The variance: the guarded selection, which takes the mean squared deviation. -/
def varT : FVec Ideal S128 .f32 :=
  select (broadcastInDim S128 ![] bcast_S_S128 (cmpf .ogt cntT (constant (F := Ideal) S_ .f32 0x00000000#32))) (msqT o)
    (broadcastInDim S128 ![] bcast_S_S128 (constant (F := Ideal) S_ .f32 0x7FC00000#32))

theorem varT_apply (h10k : GcnBn.tenK = ((10000 : ℝ) : EReal)) (n : Fin 128) :
    varT o (ix1 n) = GcnBn.rVar (fun r n => o (ix2 r n)) n := by
  unfold varT
  rw [select_apply, broadcastInDim_scalar_apply, guard_apply h10k, select_one, msqT_apply]

/-- The root of the variance plus ε. -/
def rootT : FVec Ideal S128 .f32 :=
  Host.sqrt (F := Ideal) (addf (varT o) (broadcastInDim S128 ![] bcast_S_S128 (constant (F := Ideal) S_ .f32 0x3727C5AC#32)))

theorem rootT_apply (h10k : GcnBn.tenK = ((10000 : ℝ) : EReal)) (n : Fin 128) :
    rootT o (ix1 n) = Ideal.sqrt (GcnBn.rVar (fun r n => o (ix2 r n)) n + GcnBn.eps) := by
  unfold rootT
  rw [hostSqrt_apply, addf_apply, varT_apply o h10k, broadcastInDim_scalar_apply, constant_apply]
  rfl

/-- The normalised layer: centred, divided by the root, scaled and shifted. -/
def normT (a5 a6 : FVec Ideal S128 .f32) : FVec Ideal S10000x128 .f32 :=
  addf (mulf (Host.divf (F := Ideal) (subf o (broadcastInDim S10000x128 ![0, 1] bcast_S1x128_S10000x128_0_1 (broadcastInDim S1x128 ![1] bcast_S128_S1x128_1 (meanT o)))) (broadcastInDim S10000x128 ![0, 1] bcast_S1x128_S10000x128_0_1 (broadcastInDim S1x128 ![1] bcast_S128_S1x128_1 (rootT o))))
    (broadcastInDim S10000x128 ![0, 1] bcast_S1x128_S10000x128_0_1 (broadcastInDim S1x128 ![1] bcast_S128_S1x128_1 a5))) (broadcastInDim S10000x128 ![0, 1] bcast_S1x128_S10000x128_0_1 (broadcastInDim S1x128 ![1] bcast_S128_S1x128_1 a6))

theorem normT_apply (a5 a6 : FVec Ideal S128 .f32) (h10k : GcnBn.tenK = ((10000 : ℝ) : EReal)) (r : Fin 10000) (n : Fin 128) :
    normT o a5 a6 (ix2 r n) = GcnBn.rOut (fun r n => o (ix2 r n)) (fun n => a5 (ix1 n)) (fun n => a6 (ix1 n)) r n := by
  unfold normT
  rw [addf_apply, mulf_apply, hostDivf_apply, subf_apply, bcCols_apply, bcCols_apply, bcCols_apply, bcCols_apply,
    meanT_apply, rootT_apply o h10k]
  rfl

end Stages

/-! ## The layer before normalisation -/

/-- The neighbourhood product of the feature product, plus the self product, plus the bias. -/
def preT (a0 : FVec Ideal S10000x128 .f32) (a1 : FVec Ideal S10000x10000 .f32) (a2 a3 : FVec Ideal S128x128 .f32)
    (a4 : FVec Ideal S128 .f32) : FVec Ideal S10000x128 .f32 :=
  addf (addf (Host.dotGeneral (F := Ideal) dot_S10000x10000_S10000x128_S10000x128_1_0_0_1_n_n none a1 (Host.dotGeneral (F := Ideal) dot_S10000x128_S128x128_S10000x128_1_0_0_1_n_n none a0 a2))
    (Host.dotGeneral (F := Ideal) dot_S10000x128_S128x128_S10000x128_1_0_0_1_n_n none a0 a3)) (broadcastInDim S10000x128 ![0, 1] bcast_S1x128_S10000x128_0_1 (broadcastInDim S1x128 ![1] bcast_S128_S1x128_1 a4))

theorem preT_apply (a0 : FVec Ideal S10000x128 .f32) (a1 : FVec Ideal S10000x10000 .f32) (a2 a3 : FVec Ideal S128x128 .f32)
    (a4 : FVec Ideal S128 .f32) (r : Fin 10000) (n : Fin 128) :
    preT a0 a1 a2 a3 a4 (ix2 r n)
      = GcnBn.pre (fun k j => a0 (ix2 k j)) (fun r k => a1 (ix2 r k)) (fun j n => a2 (ix2 j n)) (fun j n => a3 (ix2 j n))
          (fun n => a4 (ix1 n)) r n := by
  unfold preT
  rw [addf_apply, addf_apply, dotB_apply, dotA_apply, bcCols_apply]
  simp only [dotA_apply]
  rfl

/-! ## The result at an index -/

/-- The program's term is the normalisation of the layer: the same operations, grouped. -/
theorem refTerm_split (a0 : FVec Ideal S10000x128 .f32) (a1 : FVec Ideal S10000x10000 .f32) (a2 a3 : FVec Ideal S128x128 .f32)
    (a4 a5 a6 : FVec Ideal S128 .f32) :
    refTerm (F := Ideal) a0 a1 a2 a3 a4 a5 a6 = normT (preT a0 a1 a2 a3 a4) a5 a6 := rfl

/-- The reference's result at row `r`, column `n`: the second spelling of the normalised layer. -/
theorem refTerm_apply (a0 : FVec Ideal S10000x128 .f32) (a1 : FVec Ideal S10000x10000 .f32) (a2 a3 : FVec Ideal S128x128 .f32)
    (a4 a5 a6 : FVec Ideal S128 .f32) (h10k : GcnBn.tenK = ((10000 : ℝ) : EReal)) (r : Fin 10000) (n : Fin 128) :
    refTerm (F := Ideal) a0 a1 a2 a3 a4 a5 a6 (ix2 r n)
      = GcnBn.rOut (GcnBn.pre (fun k j => a0 (ix2 k j)) (fun r k => a1 (ix2 r k)) (fun j n => a2 (ix2 j n)) (fun j n => a3 (ix2 j n)) (fun n => a4 (ix1 n)))
          (fun n => a5 (ix1 n)) (fun n => a6 (ix1 n)) r n := by
  have hpre : (fun r n => preT a0 a1 a2 a3 a4 (ix2 r n))
      = GcnBn.pre (fun k j => a0 (ix2 k j)) (fun r k => a1 (ix2 r k)) (fun j n => a2 (ix2 j n)) (fun j n => a3 (ix2 j n))
          (fun n => a4 (ix1 n)) :=
    funext fun r => funext fun n => preT_apply a0 a1 a2 a3 a4 r n
  rw [refTerm_split, normT_apply _ _ _ h10k, hpre]

end Cert.ReferenceIdeal.RefValue

end
-- ==== Proof.Consts.lean ====
/-
  The two single-precision words of the normalisation, read as extended reals: the node count
  10000.0 and the positive ε.
-/
import proofs.«178506_g1967095022032_cont_sun_m_789_21_alg».proof.Proof.Spec

noncomputable section

namespace GcnBn

open Idealize.ShloMosaic

/-- The word 0x461C4000 has sign 0, exponent field 140 and fraction 0x1C4000, so it denotes
    (2^23 + 1851392) · 2^(140 − 127 − 23) = 10240000 / 1024 = 10000. -/
theorem tenK_eq : tenK = ((10000 : ℝ) : EReal) := by
  simp [tenK, Ideal.ofBits, Ideal.ieee, -EReal.coe_mul]; norm_num

/-- The word 0x3727C5AC has sign 0, exponent field 110 and fraction 0x27C5AC, so it denotes the
    positive real (2^23 + 2606508) · 2^(110 − 127 − 23). -/
theorem eps_pos : ∃ e : ℝ, 0 < e ∧ eps = ((e : ℝ) : EReal) := by
  refine ⟨((2 ^ 23 + 2606508 : ℕ) : ℝ) * (2 : ℝ) ^ ((110 : ℤ) - 127 - 23), by positivity, ?_⟩
  simp [eps, Ideal.ofBits, Ideal.ieee, -EReal.coe_mul]

end GcnBn

end
-- ==== Proof.SpecLaw.lean ====
/-
  The two spellings of the normalisation agree on finite entries, and the layer before the
  normalisation is finite on finite inputs.

  Everything is first computed over ℝ: on real entries every sum, product and difference of the
  extended-real definitions is the coercion of the same expression over ℝ, the divisions are by
  the nonzero real 10000, and the radicand var + ε is a positive real, so the root and the
  reciprocal root are the real ones. What is left is the variance identity
      (1/N) Σ (o − m)² = (1/N) Σ o² − m²,      m = (1/N) Σ o,
  and the field identity  o·(γ·s⁻¹) + (β − m·(γ·s⁻¹)) = (o − m)·s⁻¹·γ + β.
-/
import proofs.«178506_g1967095022032_cont_sun_m_789_21_alg».proof.Proof.Spec
import proofs.«178506_g1967095022032_cont_sun_m_789_21_alg».proof.Proof.Consts

noncomputable section

namespace GcnBn

open Idealize.ShloMosaic

/-! ### Coercion commutes with finite sums -/

theorem coe_sum {ι : Type*} (s : Finset ι) (f : ι → ℝ) :
    (∑ i ∈ s, ((f i : ℝ) : EReal)) = ((∑ i ∈ s, f i : ℝ) : EReal) := by
  classical
  refine Finset.induction_on s ?_ ?_
  · simp
  · intro a t ha ih
    rw [Finset.sum_insert ha, Finset.sum_insert ha, ih, EReal.coe_add]

/-! ### The layer before normalisation is real on real inputs -/

theorem pre_real (x : Fin 10000 → Fin 128 → EReal) (adj : Fin 10000 → Fin 10000 → EReal)
    (W Ws : Fin 128 → Fin 128 → EReal) (b : Fin 128 → EReal)
    (hx : ∀ k j, ∃ v : ℝ, x k j = (v : EReal)) (hadj : ∀ r k, ∃ v : ℝ, adj r k = (v : EReal))
    (hW : ∀ j n, ∃ v : ℝ, W j n = (v : EReal))
    (hWs : ∀ j n, ∃ v : ℝ, Ws j n = (v : EReal)) (hb : ∀ n, ∃ v : ℝ, b n = (v : EReal)) :
    ∀ r n, ∃ v : ℝ, pre x adj W Ws b r n = (v : EReal) := by
  choose fx hfx using hx
  choose fa hfa using hadj
  choose fW hfW using hW
  choose fWs hfWs using hWs
  choose fb hfb using hb
  intro r n
  refine ⟨((∑ k, fa r k * ∑ j, fx k j * fW j n) + ∑ j, fx r j * fWs j n) + fb n, ?_⟩
  simp only [pre, sup, hfx, hfa, hfW, hfWs, hfb, ← EReal.coe_mul, coe_sum, ← EReal.coe_add]

/-! ### The real identities -/

/-- The mean of the squared deviations is the mean of the squares minus the squared mean. -/
theorem var_identity (f : Fin 10000 → ℝ) (m : ℝ) (hm : m = (∑ r, f r) * (1 / 10000)) :
    (∑ r, (f r - m) * (f r - m)) * (1 / 10000) = (∑ r, f r * f r) * (1 / 10000) - m * m := by
  have h : ∀ r, (f r - m) * (f r - m) = f r * f r - 2 * m * f r + m * m := by
    intro r; ring
  simp only [h, Finset.sum_add_distrib, Finset.sum_sub_distrib, ← Finset.mul_sum,
    Finset.sum_const, Finset.card_univ, Fintype.card_fin, nsmul_eq_mul, Nat.cast_ofNat]
  subst hm
  ring

/-- A mean of squares is not negative. -/
theorem var_nonneg (f : Fin 10000 → ℝ) (m : ℝ) :
    0 ≤ (∑ r, (f r - m) * (f r - m)) * (1 / 10000) :=
  mul_nonneg (Finset.sum_nonneg fun r _ => mul_self_nonneg _) (by norm_num)

/-- Scale-and-shift by the reciprocal root is centring, dividing by the root, scaling, shifting. -/
theorem affine_identity (o m g bt s : ℝ) :
    o * (g * s⁻¹) + (bt - m * (g * s⁻¹)) = (o - m) * (1 / s) * g + bt := by
  rw [one_div]; ring

/-! ### The extended-real definitions on real entries -/

section Coe

variable (o : Fin 10000 → Fin 128 → EReal) (f : Fin 10000 → Fin 128 → ℝ)
  (hf : ∀ r n, o r n = ((f r n : ℝ) : EReal))

include hf

theorem kMean_coe (n : Fin 128) :
    kMean o n = (((∑ r, f r n) * (1 / 10000) : ℝ) : EReal) := by
  simp only [kMean, invN, hf, coe_sum, ← EReal.coe_mul]

theorem kVar_coe (n : Fin 128) :
    kVar o n = (((∑ r, f r n * f r n) * (1 / 10000)
      - ((∑ r, f r n) * (1 / 10000)) * ((∑ r, f r n) * (1 / 10000)) : ℝ) : EReal) := by
  simp only [kVar, kMean_coe o f hf, invN, hf, ← EReal.coe_mul, coe_sum, ← EReal.coe_sub]

theorem rMean_coe (n : Fin 128) :
    rMean o n = (((∑ r, f r n) * (1 / 10000) : ℝ) : EReal) := by
  have h : (10000 : ℝ) ≠ 0 := by norm_num
  simp only [rMean, tenK_eq, Ideal.div_coe h, hf, coe_sum, ← EReal.coe_mul]

theorem rVar_coe (n : Fin 128) :
    rVar o n = (((∑ r, (f r n - (∑ r, f r n) * (1 / 10000)) * (f r n - (∑ r, f r n) * (1 / 10000)))
      * (1 / 10000) : ℝ) : EReal) := by
  have h : (10000 : ℝ) ≠ 0 := by norm_num
  simp only [rVar, rMean_coe o f hf, tenK_eq, sub_zero, Ideal.div_coe h, hf, ← EReal.coe_sub,
    ← EReal.coe_mul, coe_sum]

end Coe

/-! ### The two spellings agree -/

theorem kOut_eq_rOut (o : Fin 10000 → Fin 128 → EReal) (γ β : Fin 128 → EReal)
    (ho : ∀ r n, ∃ v : ℝ, o r n = (v : EReal)) (hγ : ∀ n, ∃ v : ℝ, γ n = (v : EReal))
    (hβ : ∀ n, ∃ v : ℝ, β n = (v : EReal))
    (r : Fin 10000) (n : Fin 128) : kOut o γ β r n = rOut o γ β r n := by
  choose f hf using ho
  choose g hg using hγ
  choose bt hbt using hβ
  obtain ⟨e, he, hε⟩ := eps_pos
  -- the mean, and the variance in its two spellings
  set m : ℝ := (∑ r, f r n) * (1 / 10000) with hm
  have hvar := var_identity (fun r => f r n) m hm
  have hnn := var_nonneg (fun r => f r n) m
  set v : ℝ := (∑ r, (f r n - m) * (f r n - m)) * (1 / 10000) with hv
  have hpos : 0 < v + e := by linarith
  have hs : Real.sqrt (v + e) ≠ 0 := (Real.sqrt_pos.mpr hpos).ne'
  have hk : kVar o n + eps = ((v + e : ℝ) : EReal) := by
    rw [kVar_coe o f hf, hε, ← EReal.coe_add, ← hm, ← hvar]
  have hr : rVar o n + eps = ((v + e : ℝ) : EReal) := by
    rw [rVar_coe o f hf, hε, ← EReal.coe_add]
  have hrs : Ideal.rsqrt ((v + e : ℝ) : EReal) = (((Real.sqrt (v + e))⁻¹ : ℝ) : EReal) := by
    rw [Ideal.rsqrt_coe, if_neg (not_lt.mpr hpos.le), if_neg hpos.ne']
  have hsq : Ideal.sqrt ((v + e : ℝ) : EReal) = ((Real.sqrt (v + e) : ℝ) : EReal) := by
    rw [Ideal.sqrt_coe, if_neg (not_lt.mpr hpos.le)]
  unfold kOut rOut kShift kScale
  rw [hk, hr, hrs, hsq, Ideal.div_coe hs, kMean_coe o f hf, rMean_coe o f hf, hf, hg, hbt, ← hm]
  simp only [← EReal.coe_mul, ← EReal.coe_sub, ← EReal.coe_add]
  rw [affine_identity]

end GcnBn

end
-- ==== Proof.Finite.lean ====
/-
  From the finiteness predicate to "every entry is a real".

  The predicate is, for each of the seven inputs, the conjunction over all entries of |a| < +∞
  (the absolute value being max a (−a)), and the seven conjunctions and-ed. A conjunction that is
  true has every conjunct true, so every entry has max a (−a) < ⊤; of the three kinds of extended
  real, ⊥ and ⊤ have max a (−a) = ⊤, which leaves the reals. Nothing is enumerated: each entry is
  read off the conjunction by its universal property.
-/
import proofs.«178506_g1967095022032_cont_sun_m_789_21_alg».proof.Pre_finite_inputs
import proofs.«178506_g1967095022032_cont_sun_m_789_21_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Cert.Pre_finite_inputs

/-- The shape with no axes has one index. -/
instance : Subsingleton S_.Idx := ⟨fun a b => funext fun d => d.elim0⟩

/-- The word 0x7F800000 (sign 0, exponent field all ones, fraction 0) denotes +∞. -/
theorem ofBits_inf : Ideal.ofBits .f32 0x7F800000#32 = (⊤ : EReal) := by
  simp [Ideal.ofBits, Ideal.ieee]

/-- An extended real whose absolute value max x (−x) lies below +∞ is a real. -/
theorem real_of_abs_lt_top (x : EReal) (h : max x (-x) < ⊤) : ∃ v : ℝ, x = (v : EReal) := by
  induction x using EReal.rec with
  | bot => simp at h
  | coe v => exact ⟨v, rfl⟩
  | top => simp at h

/-- A truth value whose one-bit word is 1 is true. -/
theorem ofBool_eq_one {b : Bool} (h : BitVec.ofBool b = 1#1) : b = true := by
  cases b
  · exact absurd h (by decide)
  · rfl

/-- Two one-bit scalars and-ed give 1 exactly when both are 1. -/
theorem andi_ix0 (x y : IVec S_ 1) :
    andi x y ValueIdx.ix0 = 1#1 ↔ x ValueIdx.ix0 = 1#1 ∧ y ValueIdx.ix0 = 1#1 :=
  IntOp.andi_eq_one

/-- Over any shape: if the conjunction over all entries of |a| < +∞ is true, every entry of a
    is a real. -/
theorem real_of_all {s : Shape} {axes : List (Fin s.rank)} (a : FVec Ideal s .f32)
    (bc : S_.BroadcastsInDim s (![] : Fin 0 → Fin s.rank)) (h : s.ReducesTo axes S_)
    (hu : 0 < S_.numel) (init : IVec S_ 1)
    (e : Host.reduce IntOp.andi
          (cmpf .olt (Host.absf a) (broadcastInDim s ![] bc (constant (F := Ideal) S_ .f32 0x7F800000#32)))
          init h hu ValueIdx.ix0 = 1#1) :
    ∀ i, ∃ v : ℝ, a i = (v : EReal) := by
  intro i
  have hi := Host.reduce_andi_all _ init h hu ValueIdx.ix0 e i
  have hi' : Ideal.cmp .olt (max (a i) (-(a i))) (Ideal.ofBits .f32 0x7F800000#32) = 1#1 := hi
  rw [ofBits_inf] at hi'
  have hb : BitVec.ofBool (decide (max (a i) (-(a i)) < ⊤)) = 1#1 := hi'
  exact real_of_abs_lt_top (a i) (of_decide_eq_true (ofBool_eq_one hb))

theorem of_pre (a0 : FVec Ideal S10000x128 .f32) (a1 : FVec Ideal S10000x10000 .f32)
    (a2 a3 : FVec Ideal S128x128 .f32) (a4 a5 a6 : FVec Ideal S128 .f32)
    (h : Cert.Pre_finite_inputs.fn (F := Ideal) a0 a1 a2 a3 a4 a5 a6 = fun _ => 1#1) :
    (∀ i, ∃ v : ℝ, a0 i = (v : EReal)) ∧ (∀ i, ∃ v : ℝ, a1 i = (v : EReal))
      ∧ (∀ i, ∃ v : ℝ, a2 i = (v : EReal)) ∧ (∀ i, ∃ v : ℝ, a3 i = (v : EReal))
      ∧ (∀ i, ∃ v : ℝ, a4 i = (v : EReal)) ∧ (∀ i, ∃ v : ℝ, a5 i = (v : EReal))
      ∧ (∀ i, ∃ v : ℝ, a6 i = (v : EReal)) := by
  have h0 := congrFun h ValueIdx.ix0
  dsimp only [Cert.Pre_finite_inputs.fn, Cert.Pre_finite_inputs.fn_part1] at h0
  simp only [andi_ix0] at h0
  obtain ⟨⟨⟨⟨⟨⟨e0, e1⟩, e2⟩, e3⟩, e4⟩, e5⟩, e6⟩ := h0
  exact ⟨real_of_all a0 _ _ _ _ e0, real_of_all a1 _ _ _ _ e1, real_of_all a2 _ _ _ _ e2,
    real_of_all a3 _ _ _ _ e3, real_of_all a4 _ _ _ _ e4, real_of_all a5 _ _ _ _ e5,
    real_of_all a6 _ _ _ _ e6⟩

end Cert.Finite

end
-- ==== Proof.lean ====
/-
  The certificate of a graph-convolution layer with batch normalisation:

    out = BatchNorm (adj · (x · W) + x · W_self + b),   10000 nodes × 128 features,

  the normalisation over the nodes with the batch's own mean and (biased) variance, ε under the
  root, gain γ and offset β.

  The kernel streams adj through a grid of 25 points, 400 rows each. The first point forms the
  support x · W in a scratch buffer; every point stores its 400 rows of the layer into an output
  buffer that stays resident across the whole grid; the last point computes the column statistics of
  the completed buffer and replaces it by its normalisation, which is then written back once. The
  reference is the layer written directly.

  On the extended reals, with every input finite, both give the same array. The layer before
  normalisation is the same sums of products on both sides. The kernel takes the mean as the column
  sum times the exact reciprocal 1/10000 and the variance as E[o²] − E[o]², and applies
  o · (γ · rsqrt (var + ε)) + (β − mean · γ · rsqrt (var + ε)); the reference divides by 10000,
  takes the variance as the mean squared deviation, and applies ((o − mean) / sqrt (var + ε)) · γ + β.
  For finite entries the two variances are one real number, the radicand is positive, the reciprocal
  root is the inverse of the root, and the two expressions are equal by the field laws: this is the
  one place finiteness is used.

  The frames: at every grid point the kernel body runs on its staging buffers without a fault,
  whatever the output's staging buffer held before the first point; the arguments are never written.
-/
import proofs.«178506_g1967095022032_cont_sun_m_789_21_alg».proof.Defs
import proofs.«178506_g1967095022032_cont_sun_m_789_21_alg».proof.Proof.KFrame
import proofs.«178506_g1967095022032_cont_sun_m_789_21_alg».proof.Proof.KIFinal
import proofs.«178506_g1967095022032_cont_sun_m_789_21_alg».proof.Proof.RefRead
import proofs.«178506_g1967095022032_cont_sun_m_789_21_alg».proof.Proof.SpecLaw
import proofs.«178506_g1967095022032_cont_sun_m_789_21_alg».proof.Proof.Finite
import proofs.«178506_g1967095022032_cont_sun_m_789_21_alg».proof.Proof.Gen.Kernel
import proofs.«178506_g1967095022032_cont_sun_m_789_21_alg».proof.Proof.Gen.KernelIdeal
import proofs.«178506_g1967095022032_cont_sun_m_789_21_alg».proof.Proof.Gen.ReferenceIdeal
import proofs.«178506_g1967095022032_cont_sun_m_789_21_alg».proof.Proof.Gen.Pre_finite_inputs
import Idealize.ShloMosaic.PureOps.IdealRules
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The word-level kernel runs and leaves its arguments unchanged. -/
theorem frame_k : Cert.frame_Kernel := fun m ρ _ => Cert.Kernel.Body.frame m ρ

/-- So does the idealized kernel. -/
theorem frame_ki : Cert.frame_KernelIdeal := fun m ρ _ => Cert.KernelIdeal.Body.frame m ρ

/-- The reference is host operations only: its run, the result dropped. -/
theorem frame_ri : Cert.frame_ReferenceIdeal := fun m ρ _ =>
  (θ_run Cert.ReferenceIdeal.defs _ _).mono (fun _ h c => (h c).2) (Cert.ReferenceIdeal.RefValue.run (F := Ideal) m ρ)

/-- The idealization names one literal, at its two sites: the single-precision word nearest 1/10000
    stands for the rational 1/10000, the reciprocal of the node count the source divides by. -/
theorem preserves : Cert.preserves_Kernel_KernelIdeal :=
  ⟨IdealRules.named_const.statement Cert.KernelIdeal.κ "inv_10000" .f32 0x38D1B717#32 ((1 / 10000 : ℝ) : EReal) rfl,
   IdealRules.named_const.statement Cert.KernelIdeal.κ "inv_10000" .f32 0x38D1B717#32 ((1 / 10000 : ℝ) : EReal) rfl⟩

/-- Both programs end with the same array: the kernel's is the normalised layer in its own
    spelling, the reference's in the other, and for finite inputs the two spellings agree. -/
theorem algebraic : Cert.algebraic_KernelIdeal_ReferenceIdeal := by
  intro m ρ m' ρ' hpre hagree
  refine ⟨fun c => Cert.ReferenceIdeal.RefValue.refTerm (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run Cert.KernelIdeal.defs _ _).mono (fun st h c => ⟨?_, (h c).2⟩) (Cert.KernelIdeal.Body.kernel_value m ρ)
    obtain ⟨h0, h1, h2, h3, h4, h5, h6⟩ := Cert.Finite.of_pre _ _ _ _ _ _ _ (hpre c)
    refine funext fun i => ?_
    obtain ⟨r, n, rfl⟩ : ∃ (r : Fin 10000) (n : Fin 128), i = ix2 r n := ⟨i 0, i 1, eq_ix2 i⟩
    refine ((h c).1 r n).trans ?_
    dsimp only
    rw [Cert.ReferenceIdeal.RefValue.refTerm_apply _ _ _ _ _ _ _ GcnBn.tenK_eq r n]
    unfold Cert.KernelIdeal.Body.oPre
    exact GcnBn.kOut_eq_rOut _ _ _
      (GcnBn.pre_real _ _ _ _ _ (fun k j => h0 (ix2 k j)) (fun r k => h1 (ix2 r k)) (fun j n => h2 (ix2 j n)) (fun j n => h3 (ix2 j n)) (fun n => h4 (ix1 n)))
      (fun n => h5 (ix1 n)) (fun n => h6 (ix1 n)) r n
  · refine (θ_run Cert.ReferenceIdeal.defs _ _).mono (fun st h c => ⟨?_, (h c).2⟩) (Cert.ReferenceIdeal.RefValue.run (F := Ideal) m' ρ')
    rw [(h c).1, (hagree c).1, (hagree c).2.1, (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
